-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x100 : Shape := ⟨2, ![1000000, 100]⟩
abbrev S1000000 : Shape := ⟨1, ![1000000]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x100 .f32) (main_arg1 : IVec S1000000 32) (main_arg2 : IVec S1000000 32) : IVec S_ 1 :=
  let main_v0 : FVec F S1000000x100 .f32 := Host.absf main_arg0
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_c_0 : IVec S_ 32 := constantI S_ 32 1#32
  let main_v4 : IVec S1000000 32 := broadcastInDim S1000000 ![] bcast_S_S1000000 main_c_0
  let main_v5 : IVec S1000000 1 := cmpi .sge main_arg2 main_v4
  let main_c_1 : IVec S_ 1 := constantI S_ 1 1#1
  let main_v6 : IVec S_ 1 := (fun x v => Host.reduce IntOp.andi x v reducesTo_S1000000_S_d0 h_S_) main_v5 main_c_1
  let main_v7 : IVec S_ 1 := andi main_v3 main_v6
  main_v7
-- ==== Kernel.lean ====
abbrev S1000000x100 : Shape := ⟨2, ![1000000, 100]⟩
abbrev S1000000 : Shape := ⟨1, ![1000000]⟩
abbrev S82x1x128 : Shape := ⟨3, ![82, 1, 128]⟩
abbrev S12288x100 : Shape := ⟨2, ![12288, 100]⟩
abbrev S12288 : Shape := ⟨1, ![12288]⟩
abbrev S1x1x128 : Shape := ⟨3, ![1, 1, 128]⟩
abbrev S12288x1 : Shape := ⟨2, ![12288, 1]⟩
abbrev S1x12288 : Shape := ⟨2, ![1, 12288]⟩
abbrev S96x128 : Shape := ⟨2, ![96, 128]⟩
abbrev S128 : Shape := ⟨1, ![128]⟩
abbrev S_ : Shape := ⟨0, ![]⟩
abbrev S1 : Shape := ⟨1, ![1]⟩

abbrev nBuf : Space → Nat
  | .hbm => 7
  | .vmem => 8
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S1000000, .i32⟩
  | .hbm, ⟨3, _⟩ => ⟨S82x1x128, .f32⟩
  | .hbm, ⟨4, _⟩ => ⟨S_, .f32⟩
  | .hbm, ⟨5, _⟩ => ⟨S_, .f32⟩
  | .hbm, ⟨6, _⟩ => ⟨S1, .f32⟩
  | .local _ .vmem, ⟨0, _⟩ => ⟨S12288x100, .f32⟩
  | .local _ .vmem, ⟨1, _⟩ => ⟨S12288x100, .f32⟩
  | .local _ .vmem, ⟨2, _⟩ => ⟨S12288, .i32⟩
  | .local _ .vmem, ⟨3, _⟩ => ⟨S12288, .i32⟩
  | .local _ .vmem, ⟨4, _⟩ => ⟨S12288, .i32⟩
  | .local _ .vmem, ⟨5, _⟩ => ⟨S12288, .i32⟩
  | .local _ .vmem, ⟨6, _⟩ => ⟨S1x1x128, .f32⟩
  | .local _ .vmem, ⟨7, _⟩ => ⟨S1x1x128, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12288x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12288 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S12288x100_S12288x100_0_0 : ∀ a, (![0, 0] : Fin 2 → Nat) a + S12288x100.size a ≤ S12288x100.size a
  h_S12288x100 : 0 < S12288x100.numel
  inb_S12288_S12288_0 : ∀ a, (![0] : Fin 1 → Nat) a + S12288.size a ≤ S12288.size a
  h_S12288 : 0 < S12288.numel
  iota_S12288x100_d1_w32 : S12288x100.Iotas .tc 32 [1]
  shapeCasts_S12288_S12288x1 : S12288.ShapeCasts S12288x1
  broadcasts_S12288x1_S12288x100 : S12288x1.Broadcasts S12288x100
  reduces_S12288x100_S12288 : S12288x100.Reduces [1] S12288
  iota_S1x12288_d1_w32 : S1x12288.Iotas .tc 32 [1]
  shapeCasts_S1x12288_S12288 : S1x12288.ShapeCasts S12288
  shapeCasts_S12288_S96x128 : S12288.ShapeCasts S96x128
  reduces_S96x128_S128 : S96x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S82x1x128_S_d0_1_2 : S82x1x128.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12288x100.size a < S1000000x100.size a
  hwx0_0 : ∀ i : grid0.Coords, EltTy.bits .f32 = 32 ∨ (Rect.unit (s := S1000000x100) (fun a => cc0_transform_0 i a * S12288x100.size a) (fun a => (Pipeline.Clip.of (cc0_transform_0 i a) (S12288x100.size a) (S1000000x100.size a)).extent (S12288x100.size a)) fun a => Pipeline.Clip.inb (Pipeline.Clip.ok_of (hstart0_0 i a))).WholeWords (EltTy.packing .f32)
  hwxs0_0 : ∀ i : grid0.Coords, EltTy.bits .f32 = 32 ∨ (Rect.unit (s := S12288x100) (fun _ => 0) (fun a => (Pipeline.Clip.of (cc0_transform_0 i a) (S12288x100.size a) (S1000000x100.size a)).extent (S12288x100.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S12288.size a < S1000000.size a
  hwx0_1 : ∀ i : grid0.Coords, EltTy.bits .i32 = 32 ∨ (Rect.unit (s := S1000000) (fun a => cc0_transform_1 i a * S12288.size a) (fun a => (Pipeline.Clip.of (cc0_transform_1 i a) (S12288.size a) (S1000000.size a)).extent (S12288.size a)) fun a => Pipeline.Clip.inb (Pipeline.Clip.ok_of (hstart0_1 i a))).WholeWords (EltTy.packing .i32)
  hwxs0_1 : ∀ i : grid0.Coords, EltTy.bits .i32 = 32 ∨ (Rect.unit (s := S12288) (fun _ => 0) (fun a => (Pipeline.Clip.of (cc0_transform_1 i a) (S12288.size a) (S1000000.size a)).extent (S12288.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S12288.size a < S1000000.size a
  hwx0_2 : ∀ i : grid0.Coords, EltTy.bits .i32 = 32 ∨ (Rect.unit (s := S1000000) (fun a => cc0_transform_2 i a * S12288.size a) (fun a => (Pipeline.Clip.of (cc0_transform_2 i a) (S12288.size a) (S1000000.size a)).extent (S12288.size a)) fun a => Pipeline.Clip.inb (Pipeline.Clip.ok_of (hstart0_2 i a))).WholeWords (EltTy.packing .i32)
  hwxs0_2 : ∀ i : grid0.Coords, EltTy.bits .i32 = 32 ∨ (Rect.unit (s := S12288) (fun _ => 0) (fun a => (Pipeline.Clip.of (cc0_transform_2 i a) (S12288.size a) (S1000000.size a)).extent (S12288.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S82x1x128.size a
  hwx0_3 : ∀ i : grid0.Coords, EltTy.bits .f32 = 32 ∨ (Rect.block (s := S82x1x128) S1x1x128.size (cc0_transform_3 i) (hinb0_3 i)).WholeWords (EltTy.packing .f32)

variable [Facts₀]

abbrev win0_0 : Pipeline.Window sig grid0 :=
  Pipeline.Window.ofSpecClip (Memref.whole main_arg0) S12288x100.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S12288.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S12288.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x100 : Shape := ⟨2, ![1000000, 100]⟩
abbrev S1000000 : Shape := ⟨1, ![1000000]⟩
abbrev S100 : Shape := ⟨1, ![100]⟩
abbrev S1x100 : Shape := ⟨2, ![1, 100]⟩
abbrev S1000000x1 : Shape := ⟨2, ![1000000, 1]⟩
abbrev S_ : Shape := ⟨0, ![]⟩
abbrev S1 : Shape := ⟨1, ![1]⟩

abbrev nBuf : Space → Nat
  | .hbm => 48
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S1000000, .i32⟩
  | .hbm, ⟨3, _⟩ => ⟨S100, .i32⟩
  | .hbm, ⟨4, _⟩ => ⟨S1x100, .i32⟩
  | .hbm, ⟨5, _⟩ => ⟨S1000000x1, .i32⟩
  | .hbm, ⟨6, _⟩ => ⟨S1000000x100, .i32⟩
  | .hbm, ⟨7, _⟩ => ⟨S1000000x100, .i32⟩
  | .hbm, ⟨8, _⟩ => ⟨S1000000x100, .i1⟩
  | .hbm, ⟨9, _⟩ => ⟨S1000000x100, .f32⟩
  | .hbm, ⟨10, _⟩ => ⟨S_, .f32⟩
  | .hbm, ⟨11, _⟩ => ⟨S1000000x100, .f32⟩
  | .hbm, ⟨12, _⟩ => ⟨S1000000x100, .f32⟩
  | .hbm, ⟨13, _⟩ => ⟨S_, .f32⟩
  | .hbm, ⟨14, _⟩ => ⟨S1000000x100, .f32⟩
  | .hbm, ⟨15, _⟩ => ⟨S1000000x100, .f32⟩
  | .hbm, ⟨16, _⟩ => ⟨S_, .f32⟩
  | .hbm, ⟨17, _⟩ => ⟨S_, .f32⟩
  | .hbm, ⟨18, _⟩ => ⟨S1000000x100, .f32⟩
  | .hbm, ⟨19, _⟩ => ⟨S1000000x100, .f32⟩
  | .hbm, ⟨20, _⟩ => ⟨S_, .f32⟩
  | .hbm, ⟨21, _⟩ => ⟨S1000000, .f32⟩
  | .hbm, ⟨22, _⟩ => ⟨S1000000, .f32⟩
  | .hbm, ⟨23, _⟩ => ⟨S1000000, .f32⟩
  | .hbm, ⟨24, _⟩ => ⟨S_, .f32⟩
  | .hbm, ⟨25, _⟩ => ⟨S_, .f32⟩
  | .hbm, ⟨26, _⟩ => ⟨S1000000x100, .f32⟩
  | .hbm, ⟨27, _⟩ => ⟨S1000000x100, .f32⟩
  | .hbm, ⟨28, _⟩ => ⟨S_, .f32⟩
  | .hbm, ⟨29, _⟩ => ⟨S1000000, .f32⟩
  | .hbm, ⟨30, _⟩ => ⟨S_, .f32⟩
  | .hbm, ⟨31, _⟩ => ⟨S1000000, .f32⟩
  | .hbm, ⟨32, _⟩ => ⟨S1000000, .f32⟩
  | .hbm, ⟨33, _⟩ => ⟨S_, .f32⟩
  | .hbm, ⟨34, _⟩ => ⟨S_, .f32⟩
  | .hbm, ⟨35, _⟩ => ⟨S1000000, .f32⟩
  | .hbm, ⟨36, _⟩ => ⟨S1000000, .i1⟩
  | .hbm, ⟨37, _⟩ => ⟨S_, .f32⟩
  | .hbm, ⟨38, _⟩ => ⟨S1000000, .f32⟩
  | .hbm, ⟨39, _⟩ => ⟨S1000000, .f32⟩
  | .hbm, ⟨40, _⟩ => ⟨S1000000, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S1000000, .f32⟩
  | .hbm, ⟨45, _⟩ => ⟨S_, .f32⟩
  | .hbm, ⟨46, _⟩ => ⟨S_, .f32⟩
  | .hbm, ⟨47, _⟩ => ⟨S1, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call2_v0 : Ref sig .tc := ⟨.hbm, 25, rfl⟩
abbrev main_call2_v1 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_call3_cst : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1000000_S1000000x1_0 : S1000000.BroadcastsInDim S1000000x1 (![0] : Fin 1 → Fin S1000000x1.rank)
  bcast_S1x100_S1000000x100_0_1 : S1x100.BroadcastsInDim S1000000x100 (![0, 1] : Fin 2 → Fin S1000000x100.rank)
  bcast_S1000000x1_S1000000x100_0_1 : S1000000x1.BroadcastsInDim S1000000x100 (![0, 1] : Fin 2 → Fin S1000000x100.rank)
  bcast_S_S1000000x100 : S_.BroadcastsInDim S1000000x100 (![] : Fin 0 → Fin S1000000x100.rank)
  reducesTo_S1000000x100_S1000000_d1 : S1000000x100.ReducesTo [1] S1000000
  h_S_ : 0 < S_.numel
  bcast_S_S1000000 : S_.BroadcastsInDim S1000000 (![] : Fin 0 → Fin S1000000.rank)
  reducesTo_S1000000_S_d0 : S1000000.ReducesTo [0] S_
  shapeCasts_S_S1 : S_.ShapeCasts S1

variable [Facts₀]

class Facts : Prop extends Facts₀ where

variable [Facts]
-- ==== Proof.BodyBits.lean ====
/-
  The kernel body's triple, for any float instance: on whichever staging buffers the four windows are at, the
  body loads the three input buffers whole, computes the per-row loss of the block (the row payload), masks the
  rows past the array's end, sums the 12288 rows lane by lane into 128 partial sums, and stores them whole into
  the result's buffer; the three input buffers are left as they were.
-/
import proofs.«144233_j25769803776122_2_alg».proof.Proof.Gen.Kernel.Launch
import proofs.«144233_j25769803776122_2_alg».proof.Proof.Gen.Kernel.Skeleton
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- One case of the body's triple: the four memrefs are the whole buffers `b0 b1 b2 b3`. The accesses are at
    offsets zero and the buffers' own sizes, so a load reads the contents and the unmasked store writes the
    payload. -/
local macro "body_case " i:ident b0:term:max b1:term:max b2:term:max b3:term:max : tactic => `(tactic| (
    have hz2 : (![0, 0] : Fin 2 → Nat) = fun _ => 0 := funext fun a => by fin_cases a <;> rfl
    have hz1 : (![0] : Fin 1 → Nat) = fun _ => 0 := funext fun a => by fin_cases a <;> rfl
    have hz3 : (![0, 0, 0] : Fin 3 → Nat) = fun _ => 0 := funext fun a => by fin_cases a <;> rfl
    have hr0 : (Memref.whole $b0 : Memref sig .tc _ _ _).view.readAt (Elt F) (Rect.unit (s := S12288x100) ![0, 0] S12288x100.size
        inb_S12288x100_S12288x100_0_0).toLoadRect = id := funext (Memref.readAt_unit_zero (Elt F) $b0 hz2 _)
    have hr1 : (Memref.whole $b1 : Memref sig .tc _ _ _).view.readAt (Elt F) (Rect.unit (s := S12288) ![0] S12288.size
        inb_S12288_S12288_0).toLoadRect = id := funext (Memref.readAt_unit_zero (Elt F) $b1 hz1 _)
    have hr2 : (Memref.whole $b2 : Memref sig .tc _ _ _).view.readAt (Elt F) (Rect.unit (s := S12288) ![0] S12288.size
        inb_S12288_S12288_0).toLoadRect = id := funext (Memref.readAt_unit_zero (Elt F) $b2 hz1 _)
    have hw3 : ∀ f w, (((Memref.whole $b3).access (Rect.unit (s := S1x1x128) ![0, 0, 0] S1x1x128.size inb_S1x1x128_S1x1x128_0_0_0)) :
        View sig .tc _ _ _).write (Elt F) f w Finset.univ = w := Memref.write_access_unit_zero_univ (Elt F) $b3 hz3 _
    simp only [owns_whole_eq, cc0__mn_loss_kernel_eq_skeleton]; unfold cc0__mn_loss_kernel_skel
    simp only [k0_part1_eq_skeleton]; unfold k0_part1_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists Gen.k0_pay1 (Gen.k0_pay2 f0 f2 f1) (Gen.k0_pay3 $i) (Scalar.ofBits .f32 0x00000000#32); isplitr
      · ipureintro; rw [hf0, hf1, hf2]
      iexact H3))

-- sixteen cases, each a symbolic run of the body's five memory operations
set_option maxHeartbeats 3200000 in
set_option maxRecDepth 65536 in
/-- The kernel body on staging buffers `s0` of the scores' window, `s1` of the labels', `s2` of the lengths' and
    `s3` of the result's: three whole loads, the block's 128 lane sums of the masked row losses, the dead load of
    the result's buffer and the whole store — the result's buffer ends holding the lane sums of what the other
    three hold, those unchanged. -/
theorem sound_body (c : Dev nD) (E : Set ℕ) (i : grid0.Coords) (s0 s1 s2 s3 : Fin 2)
    (X0 : S12288x100.Idx → Elt F .f32) (X1 X2 : S12288.Idx → Elt F .i32) (X3 : S1x1x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (Gen.k0_pay1 (Gen.k0_pay2 X0 X2 X1) (Gen.k0_pay3 i) (Scalar.ofBits .f32 0x00000000#32))) -∗ K ⟨⟩))
      ⊢ wp frame (wpE (defs₀ (F := F)) 𝒱₀ c none) E
          (cc0__mn_loss_kernel i (stage0_0 s0) (hstage0_0 s0) (stage0_1 s1) (hstage0_1 s1) (stage0_2 s2) (hstage0_2 s2) (stage0_3 s3) (hstage0_3 s3)) K := by
  fin_cases s0 <;> fin_cases s1 <;> fin_cases s2 <;> fin_cases s3
  · body_case i cc0_stg0_0 cc0_stg1_0 cc0_stg2_0 cc0_stg3_0
  · body_case i cc0_stg0_0 cc0_stg1_0 cc0_stg2_0 cc0_stg3_1
  · body_case i cc0_stg0_0 cc0_stg1_0 cc0_stg2_1 cc0_stg3_0
  · body_case i cc0_stg0_0 cc0_stg1_0 cc0_stg2_1 cc0_stg3_1
  · body_case i cc0_stg0_0 cc0_stg1_1 cc0_stg2_0 cc0_stg3_0
  · body_case i cc0_stg0_0 cc0_stg1_1 cc0_stg2_0 cc0_stg3_1
  · body_case i cc0_stg0_0 cc0_stg1_1 cc0_stg2_1 cc0_stg3_0
  · body_case i cc0_stg0_0 cc0_stg1_1 cc0_stg2_1 cc0_stg3_1
  · body_case i cc0_stg0_1 cc0_stg1_0 cc0_stg2_0 cc0_stg3_0
  · body_case i cc0_stg0_1 cc0_stg1_0 cc0_stg2_0 cc0_stg3_1
  · body_case i cc0_stg0_1 cc0_stg1_0 cc0_stg2_1 cc0_stg3_0
  · body_case i cc0_stg0_1 cc0_stg1_0 cc0_stg2_1 cc0_stg3_1
  · body_case i cc0_stg0_1 cc0_stg1_1 cc0_stg2_0 cc0_stg3_0
  · body_case i cc0_stg0_1 cc0_stg1_1 cc0_stg2_0 cc0_stg3_1
  · body_case i cc0_stg0_1 cc0_stg1_1 cc0_stg2_1 cc0_stg3_0
  · body_case i cc0_stg0_1 cc0_stg1_1 cc0_stg2_1 cc0_stg3_1

end Cert.Kernel.Hand
-- ==== Proof.FrameBits.lean ====
/-
  The frame of the word-level program: it runs (terminates, nothing faulting) and its three argument arrays end
  holding what they held. The claim does not mention the result, so the proof data constrain nothing about what the
  body leaves in any staging buffer: whatever the four buffers hold when the body is called — past the arrays' end a
  clipped block's buffer holds words nothing names, and the in-kernel sums read them — the body runs and leaves
  some contents. An input array is never written, so each ends as it began.
-/
import proofs.«144233_j25769803776122_2_alg».proof.Proof.BodyBits
import proofs.«144233_j25769803776122_2_alg».proof.Defs
import proofs.«144233_j25769803776122_2_alg».proof.Proof.Gen.Kernel.Frame
import proofs.«144233_j25769803776122_2_alg».proof.Proof.Gen.Pre_finite_inputs
import Idealize.ShloMosaic.Lib.Pipeline.FrameSuffix
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The relational proof data of the one pipeline on device `c`: the arrays at their contents when the region is
    entered; of what the body leaves in a staging buffer, nothing is asked (the relation holds of any contents found
    and left); the class invariant; nothing owed; full shares. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-! ## The body obligation -/

/-- Whatever the four current staging buffers hold, the body runs: the three inputs' buffers come back as they
    were and the result's at the lane sums computed from them; every relation is the trivial one. -/
theorem body_obligation (c : Dev nD) : (rdat m c).BodyObligation (defs₀ (F := F)) 𝒱₀ () Set.univ := fun t Y _ => by
  rw [bigSep_W0, bigSep_W0]
  simp only
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_body (F := F) c Set.univ (grid0.coords t) (cfg0.slots t 0) (cfg0.slots t 1) (cfg0.slots t 2) (cfg0.slots t 3)
    (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  isplitl [H2]
  · iexists Y 2; isplitr; · ipureintro; trivial
    iexact H2
  · iexists Gen.k0_pay1 (Gen.k0_pay2 (Y 0) (Y 2) (Y 1)) (Gen.k0_pay3 (grid0.coords t)) (Scalar.ofBits .f32 0x00000000#32)
    isplitr; · ipureintro; trivial
    iexact H3

/-! ## The run -/

/-- The buffers the three host operations after the region write: the zero they start the sum from, the sum of the
    per-block lane sums, and its reshape. -/
def T : Finset (Ref sig .tc) := {main_cst, main_v1, main_v2}

theorem hT : ∀ ops ∈ ([Gen.hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [Gen.hostOps1, List.mem_cons, List.mem_nil_iff, or_false] at hop
  rcases hop with rfl | rfl | rfl
  all_goals
    simp only [StableHlo.nullary_writes, StableHlo.binary_writes, StableHlo.reshape_writes, Finset.mem_singleton] at hb
    obtain rfl := Proc.devRef_injective (τ := τ) _ hb
    simp [T]

-- the run theorem's implicit arguments are found by unifying its conclusion with this one, which takes unfolding
-- plain definitions in a metavariable's type
set_option backward.isDefEq.respectTransparency.types false in
/-- At the compiled mesh, for any float values, from any memory whose semaphore counters are zero: every weakly fair
    execution of @main terminates, every windowed array ends at contents the write-backs allow, and every other
    unscoped buffer the later host operations do not write ends as it was. -/
theorem run_main : θ_run defs (onTc (τ := τ) (main (F := F))) (s₀ m ρ)
    (Pipeline.RDat.FramePostR cfg0 (rdat m) T (fun c b => Gen.V0 m c (Proc.devRef .tc b))) :=
  Pipeline.RDat.θ_run_frame_around_T cfgs (0 : Fin 1) Gen.launch0 defs₀ 𝒱₀ (rdat m) T m ρ main
    (hbody := body_obligation m) (hshare := fun c => (rdat m c).share_full fun _ => rfl) (howed := fun _ _ => rfl)
    (V₀ := Gen.V0 m) (opss := [Gen.hostOps1]) (hsub := Gen.sfx_sub) (hfresh := Gen.sfx_fresh) (hkeep := Gen.sfx_keeps)
    (hT := hT) (hmain := Gen.hmain m 𝒱₀) (hA := fun _ _ => rfl) (hΦ := fun _ _ => rfl)

/-! ## The frame -/

/-- The three argument arrays are input windows' arrays: never written, so after every write-back they hold what
    they held when the region was entered, which is what they held at launch. -/
theorem frame : Cert.frame_Kernel := by
  intro m ρ _
  exact (θ_run defs _ _).mono
    (fun r h c =>
      ⟨(Eq.mp (congrFun ((rdat (F := Bits) m c).ArrAt_in (0 : Fin 4) rfl cfg0.N) _) ((h c).1 0)).trans (Gen.V_main_arg0 m c),
       (Eq.mp (congrFun ((rdat (F := Bits) m c).ArrAt_in (1 : Fin 4) rfl cfg0.N) _) ((h c).1 1)).trans (Gen.V_main_arg1 m c),
       (Eq.mp (congrFun ((rdat (F := Bits) m c).ArrAt_in (2 : Fin 4) rfl cfg0.N) _) ((h c).1 2)).trans (Gen.V_main_arg2 m c)⟩)
    (run_main (F := Bits) m ρ)

end Cert.Kernel.Hand

end
-- ==== Proof.Spec.lean ====
/-
  The mathematics both programs compute, over the extended reals, stated once and over no program.

  A row is a hundred extended reals `x`, a length word `n` and a label word. Column `k` is LIVE when
  `k < n` as signed 32-bit words. The row's value is, for label one, the mean over the live columns of the
  hinge `max (-x k + margin) 0` (the sum over the live columns divided by `n` read as a number), and
  otherwise the leaky hinge of `min over the live columns of x k, plus shift` (the identity on one side of
  zero, multiplication by `slope` on the other). The result is the sum of the rows' values over the million
  rows.

  One side (suffix `K`) first replaces the length word by `max n 1`, writes `-x` as `0 - x`, starts its
  sums from nothing, takes the leaky hinge's identity branch where the argument is `> 0`, and adds the rows
  up in 82 blocks of 96 x 128 rows of which the last overhangs the million (rows past the end count zero).
  The other (suffix `R`) uses the length word as given, starts every sum from the zero word, and takes the
  identity branch where the argument is `≥ 0`. They agree when every length word is at least one.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-- The words of the float constants, at the extended reals. -/
abbrev zero : EReal := Ideal.ofBits .f32 0x00000000#32
abbrev margin : EReal := Ideal.ofBits .f32 0x3A83126F#32
abbrev shift : EReal := Ideal.ofBits .f32 0x3E19999A#32
abbrev slope : EReal := Ideal.ofBits .f32 0x3C23D70A#32
abbrev pinf : EReal := Ideal.ofBits .f32 0x7F800000#32

/-- Column `k` lies in the prefix of length word `n` (signed comparison of 32-bit words). -/
def live (n : BitVec 32) (k : Fin 100) : BitVec 1 := IntOp.cmpi .slt (BitVec.ofNat 32 k.val) n

/-- The length word as a number. -/
def lenVal (n : BitVec 32) : EReal := ((n.toInt : ℝ) : EReal)

/-- The mean hinge over the live columns, the negation written `0 - x`, the sum started from nothing. -/
def meanK (x : Fin 100 → EReal) (n : BitVec 32) : EReal :=
  Ideal.div (∑ k : Fin 100, Scalar.select (live n k) (max ((zero - x k) + margin) zero) zero) (lenVal n)

/-- The mean hinge over the live columns, the sum started from the zero word. -/
def meanR (x : Fin 100 → EReal) (n : BitVec 32) : EReal :=
  Ideal.div (zero + ∑ k : Fin 100, Scalar.select (live n k) (max ((-x k) + margin) zero) zero) (lenVal n)

/-- The least live entry of the row (`+∞` when no column is live). -/
def rowMin (x : Fin 100 → EReal) (n : BitVec 32) : EReal := ⨅ k : Fin 100, Scalar.select (live n k) (x k) pinf

/-- The leaky hinge of the shifted row minimum, identity branch where the argument is `> 0`. -/
def leakK (x : Fin 100 → EReal) (n : BitVec 32) : EReal :=
  Scalar.select (Ideal.cmp .ogt (rowMin x n + shift) zero) (rowMin x n + shift) (slope * (rowMin x n + shift))

/-- The leaky hinge of the shifted row minimum, identity branch where the argument is `≥ 0`. -/
def leakR (x : Fin 100 → EReal) (n : BitVec 32) : EReal :=
  Scalar.select (Ideal.cmp .oge (rowMin x n + shift) zero) (rowMin x n + shift) (slope * (rowMin x n + shift))

/-- A row's value, the length word first replaced by `max n 1`. -/
def rowK (x : Fin 100 → EReal) (len lab : BitVec 32) : EReal :=
  Scalar.select (IntOp.cmpi .eq lab 1#32) (meanK x (IntOp.maxsi len 1#32)) (leakK x (IntOp.maxsi len 1#32))

/-- A row's value, the length word as given. -/
def rowR (x : Fin 100 → EReal) (len lab : BitVec 32) : EReal :=
  Scalar.select (IntOp.cmpi .eq lab 1#32) (meanR x len) (leakR x len)

abbrev SX : Shape := ⟨2, ![1000000, 100]⟩
abbrev SV : Shape := ⟨1, ![1000000]⟩

/-- The sum of the rows' values over the million rows, from the zero word. `L` the labels, `N` the lengths. -/
def refTotal (X : SX.Idx → EReal) (L N : SV.Idx → BitVec 32) : EReal :=
  zero + ∑ R : Fin 1000000, rowR (fun k => X (ix2 R k)) (N (ix1 R)) (L (ix1 R))

/-- Row `a * 128 + l` of block `t`, as a row number of the whole table (it may pass the end). -/
def rowOf (t : Fin 82) (a : Fin 96) (l : Fin 128) : Nat := t.val * 12288 + (a.val * 128 + l.val)

/-- Lane `l` of block `t`: the sum over the 96 rows of that lane of the row's value, zero past the end. -/
def blockLane (X : SX.Idx → EReal) (L N : SV.Idx → BitVec 32) (t : Fin 82) (l : Fin 128) : EReal :=
  ∑ a : Fin 96, if h : rowOf t a l < 1000000 then
      rowK (fun k => X (ix2 (⟨rowOf t a l, h⟩ : Fin 1000000) k)) (N (ix1 ⟨rowOf t a l, h⟩)) (L (ix1 ⟨rowOf t a l, h⟩))
    else zero

/-- The sum of all the blocks' lanes, from the zero word. -/
def kerTotal (X : SX.Idx → EReal) (L N : SV.Idx → BitVec 32) : EReal :=
  zero + ∑ i : (⟨3, ![82, 1, 128]⟩ : Shape).Idx, blockLane X L N (i 0) (i 2)

end Cert.Spec

end
-- ==== Proof.Windows.lean ====
/-
  The windows' index arithmetic. The table of a million rows is cut into 82 blocks of 12288 rows; the last block
  passes the table's end, and the transfer that fetches it moves only the rows inside the table. So at point `t`
  row `r` of a fetched buffer holds row `t * 12288 + r` of the array exactly when that is a row of the array,
  whatever the buffer held before; the same for the two vectors of a million words. The result's blocks
  `[1, 1, 128]` tile the `[82, 1, 128]` array: entry `(t, 0, l)` lies in point `t`'s block.
-/
import proofs.«144233_j25769803776122_2_alg».proof.Proof.Gen.KernelIdeal.Frame
import proofs.«144233_j25769803776122_2_alg».proof.Proof.Gen.KernelIdeal.Skeleton
import proofs.«144233_j25769803776122_2_alg».proof.Proof.Gen.Pre_finite_inputs
import proofs.«144233_j25769803776122_2_alg».proof.Proof.Spec
import Idealize.ShloMosaic.Lib.Pipeline.Kit
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

open Idealize.ShloMosaic.ValueIdx

variable (m : (ℓ : Loc nD τ sig) → Buf (Elt Ideal) ℓ)

/-- The row table, the labels and the lengths as the region finds them. -/
abbrev tabX (c : Dev nD) : Cert.Spec.SX.Idx → EReal := Gen.V m c main_arg0
abbrev tabL (c : Dev nD) : Cert.Spec.SV.Idx → BitVec 32 := Gen.V m c main_arg1
abbrev tabN (c : Dev nD) : Cert.Spec.SV.Idx → BitVec 32 := Gen.V m c main_arg2

/-! ## The windows' index arithmetic -/

/-- Coordinate `r` of a block of `k` at block index `ix` is moved by the cut transfer iff it lies inside the axis of `d`. -/
theorem clip_extent_lt (ix k d r : Nat) (hr : r < k) : r < (Pipeline.Clip.of ix k d).extent k ↔ ix * k + r < d := by
  unfold Pipeline.Clip.of
  split
  · rename_i h; rw [Nat.succ_mul] at h; simp only [Pipeline.Clip.extent]; omega
  · rename_i h; rw [Nat.succ_mul] at h; simp only [Pipeline.Clip.extent]; omega

/-- The printed index maps, decided over the grid: every window's block index on its leading axis is the point. -/
theorem idx_facts : ∀ t : Fin cfg0.N, (grid0.coords t 0).val = t.val
    ∧ win0_0.index t (0 : Fin 2) = t.val ∧ win0_0.index t (1 : Fin 2) = 0
    ∧ win0_1.index t (0 : Fin 1) = t.val ∧ win0_2.index t (0 : Fin 1) = t.val
    ∧ win0_3.index t (0 : Fin 3) = t.val ∧ win0_3.index t (1 : Fin 3) = 0 ∧ win0_3.index t (2 : Fin 3) = 0 :=
  (by decide +kernel : ∀ t : Fin grid0.N, _)

/-- Row `r` of the table's buffer at point `t`, when row `t * 12288 + r` is a row of the table, holds that row —
    whatever the buffer held past the table's end. -/
theorem fill_read0 (c : Dev nD) (t : Fin cfg0.N) (d : S12288x100.Idx → EReal) (r : Fin 12288) (k : Fin 100)
    (h : t.val * 12288 + r.val < 1000000) :
    win0_0.fill (grid0.coords t) d (Gen.iblk m c 0 t) (ix2 r k) = tabX m c (ix2 ⟨t.val * 12288 + r.val, h⟩ k) := by
  obtain ⟨-, e1, e2, -⟩ := idx_facts t
  have hm : win0_0.moved (grid0.coords t) (ix2 r k) = true := (win0_0.moved_iff _ _).mpr fun a => by
    match a with
    | ⟨0, _⟩ =>
      show r.val < (Pipeline.Clip.of (win0_0.index t (0 : Fin 2)) 12288 1000000).extent 12288
      rw [clip_extent_lt _ _ _ _ r.isLt, e1]; exact h
    | ⟨1, _⟩ =>
      show k.val < (Pipeline.Clip.of (win0_0.index t (1 : Fin 2)) 100 100).extent 100
      rw [clip_extent_lt _ _ _ _ k.isLt, e2]; have := k.isLt; omega
  unfold Window.fill
  rw [dif_pos hm]
  unfold Gen.iblk
  rw [View.read_apply]
  show Gen.V m c main_arg0 _ = Gen.V m c main_arg0 _
  congr 1
  funext a; apply Fin.ext
  match a with
  | ⟨0, _⟩ => show win0_0.index t (0 : Fin 2) * 12288 + 1 * r.val = t.val * 12288 + r.val; rw [e1]; omega
  | ⟨1, _⟩ => show win0_0.index t (1 : Fin 2) * 100 + 1 * k.val = k.val; rw [e2]; omega

/-- The same for the labels' buffer. -/
theorem fill_read1 (c : Dev nD) (t : Fin cfg0.N) (d : S12288.Idx → BitVec 32) (r : Fin 12288)
    (h : t.val * 12288 + r.val < 1000000) :
    win0_1.fill (grid0.coords t) d (Gen.iblk m c 1 t) (ix1 r) = tabL m c (ix1 ⟨t.val * 12288 + r.val, h⟩) := by
  obtain ⟨-, -, -, e3, -⟩ := idx_facts t
  have hm : win0_1.moved (grid0.coords t) (ix1 r) = true := (win0_1.moved_iff _ _).mpr fun a => by
    match a with
    | ⟨0, _⟩ =>
      show r.val < (Pipeline.Clip.of (win0_1.index t (0 : Fin 1)) 12288 1000000).extent 12288
      rw [clip_extent_lt _ _ _ _ r.isLt, e3]; exact h
  unfold Window.fill
  rw [dif_pos hm]
  unfold Gen.iblk
  rw [View.read_apply]
  show Gen.V m c main_arg1 _ = Gen.V m c main_arg1 _
  congr 1
  funext a; apply Fin.ext
  match a with
  | ⟨0, _⟩ => show win0_1.index t (0 : Fin 1) * 12288 + 1 * r.val = t.val * 12288 + r.val; rw [e3]; omega

/-- The same for the lengths' buffer. -/
theorem fill_read2 (c : Dev nD) (t : Fin cfg0.N) (d : S12288.Idx → BitVec 32) (r : Fin 12288)
    (h : t.val * 12288 + r.val < 1000000) :
    win0_2.fill (grid0.coords t) d (Gen.iblk m c 2 t) (ix1 r) = tabN m c (ix1 ⟨t.val * 12288 + r.val, h⟩) := by
  obtain ⟨-, -, -, -, e4, -⟩ := idx_facts t
  have hm : win0_2.moved (grid0.coords t) (ix1 r) = true := (win0_2.moved_iff _ _).mpr fun a => by
    match a with
    | ⟨0, _⟩ =>
      show r.val < (Pipeline.Clip.of (win0_2.index t (0 : Fin 1)) 12288 1000000).extent 12288
      rw [clip_extent_lt _ _ _ _ r.isLt, e4]; exact h
  unfold Window.fill
  rw [dif_pos hm]
  unfold Gen.iblk
  rw [View.read_apply]
  show Gen.V m c main_arg2 _ = Gen.V m c main_arg2 _
  congr 1
  funext a; apply Fin.ext
  match a with
  | ⟨0, _⟩ => show win0_2.index t (0 : Fin 1) * 12288 + 1 * r.val = t.val * 12288 + r.val; rw [e4]; omega

/-! ## The result's blocks -/

/-- An index of the result array is in point `t`'s block iff each coordinate is in the block's range on its axis. -/
theorem mem_blk3 (t : Fin cfg0.N) (i : S82x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0).slice (win0_3.rect t)).set ↔ _
  rw [View.set_slice_whole, Rect.mem_set_unit]
  exact Iff.rfl

/-- Every entry of the result array lies in the block of the point its leading coordinate names, which writes it back. -/
theorem cover3 (i : S82x1x128.Idx) :
    ∃ t : Fin cfg0.N, (cfg0.win 3).flush t = true ∧ i ∈ ((cfg0.win 3).blk t).view.set := by
  have h0 : (i 0).val < 82 := (i 0).isLt
  have h1 : (i 1).val < 1 := (i 1).isLt
  have h2 : (i 2).val < 128 := (i 2).isLt
  have hN : (i 0).val < cfg0.N := by rw [show cfg0.N = 82 from Gen.N_0]; exact h0
  refine ⟨⟨(i 0).val, hN⟩, Gen.flush0_3 _, ?_⟩
  rw [mem_blk3]
  obtain ⟨-, -, -, -, -, e5', e6, e7⟩ := idx_facts ⟨(i 0).val, hN⟩
  have e5 : win0_3.index ⟨(i 0).val, hN⟩ (0 : Fin 3) = (i 0).val := e5'
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e5]; omega
  | ⟨1, _⟩ =>
    show win0_3.index ⟨(i 0).val, hN⟩ (1 : Fin 3) * 1 ≤ (i 1).val ∧ (i 1).val < win0_3.index ⟨(i 0).val, hN⟩ (1 : Fin 3) * 1 + 1
    rw [e6]; omega
  | ⟨2, _⟩ =>
    show win0_3.index ⟨(i 0).val, hN⟩ (2 : Fin 3) * 128 ≤ (i 2).val ∧ (i 2).val < win0_3.index ⟨(i 0).val, hN⟩ (2 : Fin 3) * 128 + 128
    rw [e7]; omega

end Cert.KernelIdeal.Hand

end
-- ==== Proof.BodyIdeal.lean ====
/-
  The kernel body's triple, for any float instance: on whichever staging buffers the four windows are at, the
  body loads the three input buffers whole, computes the per-row loss of the block (the row payload), masks the
  rows past the array's end, sums the 12288 rows lane by lane into 128 partial sums, and stores them whole into
  the result's buffer; the three input buffers are left as they were.
-/
import proofs.«144233_j25769803776122_2_alg».proof.Proof.Gen.KernelIdeal.Launch
import proofs.«144233_j25769803776122_2_alg».proof.Proof.Gen.KernelIdeal.Skeleton
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-- One case of the body's triple: the four memrefs are the whole buffers `b0 b1 b2 b3`. The accesses are at
    offsets zero and the buffers' own sizes, so a load reads the contents and the unmasked store writes the
    payload. -/
local macro "body_case " i:ident b0:term:max b1:term:max b2:term:max b3:term:max : tactic => `(tactic| (
    have hz2 : (![0, 0] : Fin 2 → Nat) = fun _ => 0 := funext fun a => by fin_cases a <;> rfl
    have hz1 : (![0] : Fin 1 → Nat) = fun _ => 0 := funext fun a => by fin_cases a <;> rfl
    have hz3 : (![0, 0, 0] : Fin 3 → Nat) = fun _ => 0 := funext fun a => by fin_cases a <;> rfl
    have hr0 : (Memref.whole $b0 : Memref sig .tc _ _ _).view.readAt (Elt F) (Rect.unit (s := S12288x100) ![0, 0] S12288x100.size
        inb_S12288x100_S12288x100_0_0).toLoadRect = id := funext (Memref.readAt_unit_zero (Elt F) $b0 hz2 _)
    have hr1 : (Memref.whole $b1 : Memref sig .tc _ _ _).view.readAt (Elt F) (Rect.unit (s := S12288) ![0] S12288.size
        inb_S12288_S12288_0).toLoadRect = id := funext (Memref.readAt_unit_zero (Elt F) $b1 hz1 _)
    have hr2 : (Memref.whole $b2 : Memref sig .tc _ _ _).view.readAt (Elt F) (Rect.unit (s := S12288) ![0] S12288.size
        inb_S12288_S12288_0).toLoadRect = id := funext (Memref.readAt_unit_zero (Elt F) $b2 hz1 _)
    have hw3 : ∀ f w, (((Memref.whole $b3).access (Rect.unit (s := S1x1x128) ![0, 0, 0] S1x1x128.size inb_S1x1x128_S1x1x128_0_0_0)) :
        View sig .tc _ _ _).write (Elt F) f w Finset.univ = w := Memref.write_access_unit_zero_univ (Elt F) $b3 hz3 _
    simp only [owns_whole_eq, cc0__mn_loss_kernel_eq_skeleton]; unfold cc0__mn_loss_kernel_skel
    simp only [k0_part1_eq_skeleton]; unfold k0_part1_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists Gen.k0_pay1 (Gen.k0_pay2 f0 f2 f1) (Gen.k0_pay3 $i) (Scalar.ofBits .f32 0x00000000#32); isplitr
      · ipureintro; rw [hf0, hf1, hf2]
      iexact H3))

-- sixteen cases, each a symbolic run of the body's five memory operations
set_option maxHeartbeats 3200000 in
set_option maxRecDepth 65536 in
/-- The kernel body on staging buffers `s0` of the scores' window, `s1` of the labels', `s2` of the lengths' and
    `s3` of the result's: three whole loads, the block's 128 lane sums of the masked row losses, the dead load of
    the result's buffer and the whole store — the result's buffer ends holding the lane sums of what the other
    three hold, those unchanged. -/
theorem sound_body (c : Dev nD) (E : Set ℕ) (i : grid0.Coords) (s0 s1 s2 s3 : Fin 2)
    (X0 : S12288x100.Idx → Elt F .f32) (X1 X2 : S12288.Idx → Elt F .i32) (X3 : S1x1x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (Gen.k0_pay1 (Gen.k0_pay2 X0 X2 X1) (Gen.k0_pay3 i) (Scalar.ofBits .f32 0x00000000#32))) -∗ K ⟨⟩))
      ⊢ wp frame (wpE (defs₀ (F := F)) 𝒱₀ c none) E
          (cc0__mn_loss_kernel i (stage0_0 s0) (hstage0_0 s0) (stage0_1 s1) (hstage0_1 s1) (stage0_2 s2) (hstage0_2 s2) (stage0_3 s3) (hstage0_3 s3)) K := by
  fin_cases s0 <;> fin_cases s1 <;> fin_cases s2 <;> fin_cases s3
  · body_case i cc0_stg0_0 cc0_stg1_0 cc0_stg2_0 cc0_stg3_0
  · body_case i cc0_stg0_0 cc0_stg1_0 cc0_stg2_0 cc0_stg3_1
  · body_case i cc0_stg0_0 cc0_stg1_0 cc0_stg2_1 cc0_stg3_0
  · body_case i cc0_stg0_0 cc0_stg1_0 cc0_stg2_1 cc0_stg3_1
  · body_case i cc0_stg0_0 cc0_stg1_1 cc0_stg2_0 cc0_stg3_0
  · body_case i cc0_stg0_0 cc0_stg1_1 cc0_stg2_0 cc0_stg3_1
  · body_case i cc0_stg0_0 cc0_stg1_1 cc0_stg2_1 cc0_stg3_0
  · body_case i cc0_stg0_0 cc0_stg1_1 cc0_stg2_1 cc0_stg3_1
  · body_case i cc0_stg0_1 cc0_stg1_0 cc0_stg2_0 cc0_stg3_0
  · body_case i cc0_stg0_1 cc0_stg1_0 cc0_stg2_0 cc0_stg3_1
  · body_case i cc0_stg0_1 cc0_stg1_0 cc0_stg2_1 cc0_stg3_0
  · body_case i cc0_stg0_1 cc0_stg1_0 cc0_stg2_1 cc0_stg3_1
  · body_case i cc0_stg0_1 cc0_stg1_1 cc0_stg2_0 cc0_stg3_0
  · body_case i cc0_stg0_1 cc0_stg1_1 cc0_stg2_0 cc0_stg3_1
  · body_case i cc0_stg0_1 cc0_stg1_1 cc0_stg2_1 cc0_stg3_0
  · body_case i cc0_stg0_1 cc0_stg1_1 cc0_stg2_1 cc0_stg3_1

end Cert.KernelIdeal.Hand
-- ==== Proof.LibMinReduce.lean ====
/-
  A minimum taken along ONE axis, at the ideal float values, is the infimum over that axis's coordinates.

  At the ideal values `minimumf` is `min` on the extended reals, so a reduction with a minimum body from
  `+∞` along one axis is, at each reduced index `j`, the greatest lower bound of the source's entries at
  `j` with each coordinate `k` of the reduced axis put back (`Shape.Reduces.lift j k`). Stated for the
  in-kernel vector reduction and for the host's one-operand reduce, as an `⨅` over `Fin`: a form whose
  only law a proof needs is `le_iInf_iff`.
-/
import Idealize.ShloMosaic.PureOps.Ideal.Laws
import Idealize.ShloMosaic.PureOps.Reduce

noncomputable section

namespace Idealize.ShloMosaic.Ideal

/-- The f32 pattern of `+∞` denotes the top of the extended reals. -/
theorem ofBits_posInf_f32 : Ideal.ofBits .f32 0x7F800000#32 = (⊤ : EReal) := by
  simp [Ideal.ofBits, Ideal.ieee]

/-- A fold of `min` from the top over all of `Fin n` is the infimum of the entries. -/
theorem fold_min_top_eq_iInf {n : Nat} (f : Fin n → EReal) :
    (Finset.univ : Finset (Fin n)).fold min (⊤ : EReal) f = ⨅ k : Fin n, f k := by
  refine eq_of_forall_le_iff fun z => ?_
  rw [Finset.le_fold_min, le_iInf_iff]
  exact ⟨fun h k => h.2 k (Finset.mem_univ k), fun h => ⟨le_top, fun k _ => h k⟩⟩

/-- The in-kernel minimum along one axis from `+∞`, at a reduced index, is the infimum over that axis. -/
theorem multiReduction_minimumf_single_iInf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf_f32]
  exact fold_min_top_eq_iInf _

/-- The host's one-operand reduce with a minimum body from `+∞` along one axis is the same infimum. -/
theorem hostReduce_minimumf_single_iInf {s t u : Shape} {a : Fin s.rank} (x : FVec Ideal s .f32)
    (h' : s.ReducesTo [a] t) (h : s.Reduces [a] t) (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (x ∘ h.lift j) = _
  rw [ofBits_posInf_f32]
  exact fold_min_top_eq_iInf _

end Idealize.ShloMosaic.Ideal

end
-- ==== Proof.PayIdeal.lean ====
/-
  The value the body stores, read at an index, over the extended reals.

  A block is 12288 rows of a hundred entries, with a length word and a label word per row. The body
  computes one value per row (`Cert.Spec.rowK` of the row's entries, length word and label word), replaces
  the values of the rows past the millionth by zero, lays the 12288 values out as 96 x 128 in row-major order
  and adds the 96 rows up, lane by lane. So lane `l` of what it stores is the sum over `a < 96` of the value
  of row `a * 128 + l` of the block, or zero where that row lies past the end.

  The steps: a reshape reads the entry at the same row-major position; a sum (a minimum from `+∞`) along one
  axis is the sum (the infimum) over that axis's coordinates; every other operation acts entry by entry. The
  row test compares `i * 12288 + r` with a million as signed 32-bit words; `i < 82` and `r < 12288`, so the
  words do not wrap and the test is the comparison of the numbers.
-/
import proofs.«144233_j25769803776122_2_alg».proof.Proof.Gen.KernelIdeal.Skeleton
import proofs.«144233_j25769803776122_2_alg».proof.Proof.Spec
import proofs.«144233_j25769803776122_2_alg».proof.Proof.LibMinReduce
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Row `a * 128 + l` of a block of 12288 rows laid out as 96 x 128. -/
def rowIn (a : Fin 96) (l : Fin 128) : Fin 12288 := ⟨a.val * 128 + l.val, by omega⟩

section Layout
variable {α : Type}

/-- A vector of 128 entries cast to `[1, 1, 128]` reads, at `(u, v, l)`, entry `l`. -/
theorem shapeCast_128_1x1x128_apply (x : S128.Idx → α) (h : S128.ShapeCasts S1x1x128) (u v : Fin 1) (l : Fin 128) :
    shapeCast S1x1x128 x h (ix3 u v l) = x (ix1 l) :=
  shapeCast_apply x h _ _ (by
    have hu : u.val = 0 := by omega
    have hv : v.val = 0 := by omega
    rw [Shape.rowMajor_val_three, Shape.rowMajor_val_one]
    show l.val = (u.val * 1 + v.val) * 128 + l.val
    omega)

/-- A vector of 12288 entries cast to `[96, 128]` reads, at `(a, l)`, entry `a * 128 + l`. -/
theorem shapeCast_12288_96x128_apply (x : S12288.Idx → α) (h : S12288.ShapeCasts S96x128) (a : Fin 96) (l : Fin 128) :
    shapeCast S96x128 x h (ix2 a l) = x (ix1 (rowIn a l)) :=
  shapeCast_apply x h _ _ (by
    rw [Shape.rowMajor_val_two, Shape.rowMajor_val_one]
    rfl)

/-- A vector of 12288 entries cast to a column `[12288, 1]` reads, at `(r, u)`, entry `r`. -/
theorem shapeCast_12288_12288x1_apply (x : S12288.Idx → α) (h : S12288.ShapeCasts S12288x1) (r : Fin 12288) (u : Fin 1) :
    shapeCast S12288x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[12288, 1]` broadcast along 100 columns reads, at `(r, k)`, the column's entry `r`. -/
theorem broadcastTo_12288x1_12288x100_apply (x : S12288x1.Idx → α) (h : S12288x1.Broadcasts S12288x100) (r : Fin 12288) (k : Fin 100) :
    broadcastTo S12288x100 x h (ix2 r k) = x (ix2 r (0 : Fin 1)) :=
  broadcastTo_apply x h _ _ (fun a => match a with
    | ⟨0, _⟩ => rfl
    | ⟨1, _⟩ => rfl)

/-- Lane `l` of the 96 x 128 layout with row `a` put back is `(a, l)`. -/
theorem lift_rows (h : S96x128.Reduces [0] S128) (l : Fin 128) (a : Fin (S96x128.size 0)) :
    h.lift (ix1 l) a = ix2 (⟨a.val, a.isLt⟩ : Fin 96) l := by
  funext c; apply Fin.ext
  fin_cases c <;> rfl

/-- Row `r` of the 12288 x 100 layout with column `k` put back is `(r, k)`. -/
theorem lift_cols (h : S12288x100.Reduces [1] S12288) (r : Fin 12288) (k : Fin (S12288x100.size 1)) :
    h.lift (ix1 r) k = ix2 r (⟨k.val, k.isLt⟩ : Fin 100) := by
  funext c; apply Fin.ext
  fin_cases c <;> rfl

end Layout

/-! ## The block's rows that lie inside the table -/

/-- Whether row `a * 128 + l` of block `i` lies inside the million rows, as the kernel computes it. -/
def validW (i : grid0.Coords) (a : Fin 96) (l : Fin 128) : BitVec 1 := Gen.k0_pay3 i (ix1 (rowIn a l))

/-- The kernel's row test at row `r` of block `i`: block start plus `r`, compared with a million as signed words. -/
theorem pay3_apply (i : grid0.Coords) (r : Fin 12288) :
    Gen.k0_pay3 i (ix1 r) = IntOp.cmpi .slt (BitVec.ofNat 32 (i 0).val * 12288#32 + BitVec.ofNat 32 r.val) 1000000#32 := by
  unfold Gen.k0_pay3
  show IntOp.cmpi .slt (IntOp.addi (Scalar.muli (BitVec.ofNat 32 (i 0).val) 12288#32)
      (shapeCast S12288 (iota .tc S1x12288 32 [1] Facts₀.iota_S1x12288_d1_w32) Facts₀.shapeCasts_S1x12288_S12288 (ix1 r))) 1000000#32 = _
  rw [shapeCast_1a_a_apply, iota_single_apply]
  rfl

/-- A signed comparison of 32-bit words reads `1` exactly when it holds of the words as integers. -/
theorem cmpi_slt_eq_one_iff (x y : BitVec 32) : IntOp.cmpi .slt x y = 1#1 ↔ x.toInt < y.toInt := by
  show BitVec.ofBool (x.slt y) = 1#1 ↔ _
  rw [← BitVec.slt_iff_toInt_lt]
  cases x.slt y <;> decide

/-- A natural number below `2 ^ 31`, as a 32-bit word read signed, is itself. -/
theorem toInt_ofNat_of_lt (n : Nat) (h : n < 2147483648) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- The kernel's row test holds exactly for the rows inside the million: the words do not wrap. -/
theorem validW_eq_one_iff (i : grid0.Coords) (a : Fin 96) (l : Fin 128) :
    validW i a l = 1#1 ↔ (i 0).val * 12288 + (a.val * 128 + l.val) < 1000000 := by
  have hi : (i 0).val < 82 := (i 0).isLt
  have hr : a.val * 128 + l.val < 12288 := by omega
  unfold validW
  rw [pay3_apply, cmpi_slt_eq_one_iff]
  show (BitVec.ofNat 32 (i 0).val * 12288#32 + BitVec.ofNat 32 (a.val * 128 + l.val)).toInt < (1000000#32 : BitVec 32).toInt ↔ _
  generalize (i 0).val = I at hi ⊢
  generalize a.val * 128 + l.val = r at hr ⊢
  have hx : BitVec.ofNat 32 I * 12288#32 + BitVec.ofNat 32 r = BitVec.ofNat 32 (I * 12288 + r) := by
    apply BitVec.eq_of_toNat_eq
    simp only [BitVec.toNat_add, BitVec.toNat_mul, BitVec.toNat_ofNat]
    omega
  rw [hx, toInt_ofNat_of_lt _ (by omega), show (1000000#32 : BitVec 32).toInt = 1000000 from by decide]
  omega

/-! ## One row's value -/

/-- The live-column mask of a block, from the block's (clamped) length words. -/
def maskV (N : IVec S12288 32) : IVec S12288x100 1 :=
  cmpi .slt (iota .tc S12288x100 32 [1] iota_S12288x100_d1_w32)
    (broadcastTo S12288x100 (shapeCast S12288x1 N shapeCasts_S12288_S12288x1) broadcasts_S12288x1_S12288x100)

/-- The mean hinge of every row of a block. -/
def meanV (X : FVec Ideal S12288x100 .f32) (N : IVec S12288 32) : FVec Ideal S12288 .f32 :=
  divf (multiReduction (F := Ideal) .add [1] S12288
      (select (maskV N)
        (maximumf (addf (subf (broadcast S12288x100 Cert.Spec.zero) X) (broadcast S12288x100 Cert.Spec.margin)) (broadcast S12288x100 Cert.Spec.zero))
        (broadcast S12288x100 Cert.Spec.zero))
      0x00000000#32 reduces_S12288x100_S12288 (.inl rfl) rfl)
    (sitofp .f32 N)

/-- The shifted least live entry of every row of a block. -/
def minV (X : FVec Ideal S12288x100 .f32) (N : IVec S12288 32) : FVec Ideal S12288 .f32 :=
  addf (multiReduction (F := Ideal) .minimumf [1] S12288 (select (maskV N) X (broadcast S12288x100 Cert.Spec.pinf))
      0x7F800000#32 reduces_S12288x100_S12288 (.inl rfl) rfl)
    (broadcast S12288 Cert.Spec.shift)

/-- The leaky hinge of every row of a block. -/
def leakV (X : FVec Ideal S12288x100 .f32) (N : IVec S12288 32) : FVec Ideal S12288 .f32 :=
  select (cmpf .ogt (minV X N) (broadcast S12288 Cert.Spec.zero)) (minV X N) (mulf (broadcast S12288 Cert.Spec.slope) (minV X N))

/-- The kernel's per-row payload is the choice, by the label, between the two. -/
theorem pay2_eq (X0 : FVec Ideal S12288x100 .f32) (N0 L0 : IVec S12288 32) :
    Gen.k0_pay2 (F := Ideal) X0 N0 L0
      = select (cmpi .eq L0 (broadcast S12288 1#32)) (meanV X0 (maxsi N0 (broadcast S12288 1#32))) (leakV X0 (maxsi N0 (broadcast S12288 1#32))) := rfl

/-- The mask at row `r`, column `k`: column `k` lies in the prefix of the row's length word. -/
theorem maskV_apply (N : IVec S12288 32) (r : Fin 12288) (k : Fin 100) :
    maskV N (ix2 r k) = Cert.Spec.live (N (ix1 r)) k := by
  unfold maskV Cert.Spec.live
  show IntOp.cmpi .slt (iota .tc S12288x100 32 [1] iota_S12288x100_d1_w32 (ix2 r k))
      (broadcastTo S12288x100 (shapeCast S12288x1 N shapeCasts_S12288_S12288x1) broadcasts_S12288x1_S12288x100 (ix2 r k)) = _
  rw [iota_single_apply, broadcastTo_12288x1_12288x100_apply, shapeCast_12288_12288x1_apply]

/-- A sum along the columns of a block, at row `r`, is the sum over the hundred columns of that row. -/
theorem rowSum_apply (src : FVec Ideal S12288x100 .f32) (h : S12288x100.Reduces [1] S12288) (hφ : FKind.Formats .f32)
    (hacc : (0x00000000#32 : BitVec 32) = FKind.add.neutral .f32 hφ) (r : Fin 12288) :
    multiReduction (F := Ideal) .add [1] S12288 src 0x00000000#32 h hφ hacc (ix1 r) = ∑ k : Fin 100, src (ix2 r k) :=
  (Ideal.multiReduction_add_single src 0x00000000#32 h hφ hacc (ix1 r)).trans
    (Finset.sum_congr rfl fun k _ => congrArg src (lift_cols h r k))

/-- A minimum along the columns of a block from `+∞`, at row `r`, is the infimum over the hundred columns of that row. -/
theorem rowInf_apply (src : FVec Ideal S12288x100 .f32) (h : S12288x100.Reduces [1] S12288) (hφ : FKind.Formats .f32)
    (hacc : (0x7F800000#32 : BitVec 32) = FKind.minimumf.neutral .f32 hφ) (r : Fin 12288) :
    multiReduction (F := Ideal) .minimumf [1] S12288 src 0x7F800000#32 h hφ hacc (ix1 r) = ⨅ k : Fin 100, src (ix2 r k) :=
  (Ideal.multiReduction_minimumf_single_iInf src h hφ hacc (ix1 r)).trans
    (iInf_congr fun k => congrArg src (lift_cols h r k))

/-- The mean hinge of row `r`. -/
theorem meanV_apply (X : FVec Ideal S12288x100 .f32) (N : IVec S12288 32) (r : Fin 12288) :
    meanV X N (ix1 r) = Cert.Spec.meanK (fun k => X (ix2 r k)) (N (ix1 r)) := by
  unfold meanV Cert.Spec.meanK
  rw [divf_apply, sitofp_apply]
  refine congrArg₂ Ideal.div ?_ rfl
  refine (rowSum_apply _ _ _ _ r).trans ?_
  refine Finset.sum_congr rfl fun k _ => ?_
  rw [select_apply, maskV_apply]
  all_goals rfl

/-- The shifted least live entry of row `r`. -/
theorem minV_apply (X : FVec Ideal S12288x100 .f32) (N : IVec S12288 32) (r : Fin 12288) :
    minV X N (ix1 r) = Cert.Spec.rowMin (fun k => X (ix2 r k)) (N (ix1 r)) + Cert.Spec.shift := by
  unfold minV Cert.Spec.rowMin
  rw [addf_apply, broadcast_apply]
  refine congrArg₂ (· + ·) ?_ rfl
  refine (rowInf_apply _ _ _ _ r).trans ?_
  refine iInf_congr fun k => ?_
  rw [select_apply, maskV_apply]
  all_goals rfl

/-- The leaky hinge of row `r`. -/
theorem leakV_apply (X : FVec Ideal S12288x100 .f32) (N : IVec S12288 32) (r : Fin 12288) :
    leakV X N (ix1 r) = Cert.Spec.leakK (fun k => X (ix2 r k)) (N (ix1 r)) := by
  unfold leakV Cert.Spec.leakK
  rw [select_apply, cmpf_apply, mulf_apply, broadcast_apply, broadcast_apply, minV_apply]
  all_goals rfl

/-- The kernel's payload at row `r` of a block is that row's value. -/
theorem pay2_apply (X0 : S12288x100.Idx → EReal) (N0 L0 : S12288.Idx → BitVec 32) (r : Fin 12288) :
    Gen.k0_pay2 (F := Ideal) X0 N0 L0 (ix1 r) = Cert.Spec.rowK (fun k => X0 (ix2 r k)) (N0 (ix1 r)) (L0 (ix1 r)) := by
  rw [pay2_eq]
  unfold Cert.Spec.rowK
  rw [select_apply, meanV_apply, leakV_apply]
  all_goals rfl

/-! ## The stored value at a lane -/

/-- A sum along the rows of the 96 x 128 layout, at lane `l`, is the sum over the 96 rows of that lane. -/
theorem laneSum_apply (src : FVec Ideal S96x128 .f32) (h : S96x128.Reduces [0] S128) (hφ : FKind.Formats .f32)
    (hacc : (0x00000000#32 : BitVec 32) = FKind.add.neutral .f32 hφ) (l : Fin 128) :
    multiReduction (F := Ideal) .add [0] S128 src 0x00000000#32 h hφ hacc (ix1 l) = ∑ a : Fin 96, src (ix2 a l) :=
  (Ideal.multiReduction_add_single src 0x00000000#32 h hφ hacc (ix1 l)).trans
    (Finset.sum_congr rfl fun a _ => congrArg src (lift_rows h l a))

/-- The value the kernel's body stores, at lane `l`: the sum over the 96 rows of that lane of the row's value,
zero for the rows past the end of the table. -/
theorem pay_apply (X0 : S12288x100.Idx → EReal) (N0 L0 : S12288.Idx → BitVec 32) (i : grid0.Coords) (l : Fin 128) :
    Gen.k0_pay1 (F := Ideal) (Gen.k0_pay2 (F := Ideal) X0 N0 L0) (Gen.k0_pay3 i) (Scalar.ofBits .f32 0x00000000#32) (ix3 (0 : Fin 1) (0 : Fin 1) l)
      = ∑ a : Fin 96, Scalar.select (validW i a l)
          (Cert.Spec.rowK (fun k => X0 (ix2 (rowIn a l) k)) (N0 (ix1 (rowIn a l))) (L0 (ix1 (rowIn a l)))) Cert.Spec.zero := by
  unfold Gen.k0_pay1
  refine (shapeCast_128_1x1x128_apply _ _ 0 0 l).trans ?_
  refine (laneSum_apply _ _ _ _ l).trans ?_
  refine Finset.sum_congr rfl fun a _ => ?_
  refine (shapeCast_12288_96x128_apply _ _ a l).trans ?_
  rw [select_apply, pay2_apply, broadcast_apply]
  all_goals rfl

end Cert.KernelIdeal.Pay

end
-- ==== Proof.RunIdeal.lean ====
/-
  The idealized kernel's run, read as a value. The pallas_call visits 82 points; at point `t` it fetches block `t`
  of the row table (12288 rows of 100) and of the two vectors of labels and lengths, runs the body, and writes the
  body's 128 lane sums back as row `t` of a `[82, 1, 128]` array; the host then sums that array from the zero
  word into one entry.

  The last block overhangs the million rows: its fetch fills only the rows inside the table and leaves, past
  them, words nothing names. The body discards every row whose number `t * 12288 + r` is not below a million by
  a select on that number alone, and over the extended reals a sum along a row reads that row only — so what
  the body stores is one function of the ARRAYS, whatever lies past the table's end (`stored_eq`): lane `l` of
  block `t` is the sum over the 96 rows `a * 128 + l` of the row's value, zero past the end
  (`Cert.Spec.blockLane`). That function names the result buffer after the body in the proof data; the three
  input buffers are named by their blocks. The blocks of the result tile its array, so after the run the array
  is `(t, 0, l) ↦ blockLane t l` (`final3`), and the host lines after the region make of it the total
  `Cert.Spec.kerTotal` (`tail_v2`).
-/
import proofs.«144233_j25769803776122_2_alg».proof.Defs
import proofs.«144233_j25769803776122_2_alg».proof.Proof.Gen.KernelIdeal.Frame
import proofs.«144233_j25769803776122_2_alg».proof.Proof.Gen.KernelIdeal.Skeleton
import proofs.«144233_j25769803776122_2_alg».proof.Proof.Gen.Pre_finite_inputs
import proofs.«144233_j25769803776122_2_alg».proof.Proof.Spec
import proofs.«144233_j25769803776122_2_alg».proof.Proof.Windows
import proofs.«144233_j25769803776122_2_alg».proof.Proof.BodyIdeal
import proofs.«144233_j25769803776122_2_alg».proof.Proof.PayIdeal
import Idealize.ShloMosaic.PureOps.Ideal.Laws
import Idealize.ShloMosaic.Lib.StableHlo.Run
import Idealize.ShloMosaic.Lib.Pipeline.Kit
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

/-- What the body stores at grid coordinates `i`, as a function of what the three input buffers hold
    (`X0` the table's block, `X1` the labels', `X2` the lengths'). -/
def stored (i : grid0.Coords) (X0 : S12288x100.Idx → Elt Ideal .f32) (X1 X2 : S12288.Idx → Elt Ideal .i32) : S1x1x128.Idx → Elt Ideal .f32 :=
  Gen.k0_pay1 (Gen.k0_pay2 X0 X2 X1) (Gen.k0_pay3 i) (Scalar.ofBits .f32 0x00000000#32)

/-- An input window's buffer after the body at point `t`: its block of the array, filled out past the array's
    end with a word nothing reads. -/
def in0 (c : Dev nD) (t : Fin cfg0.N) : S12288x100.Idx → Elt Ideal .f32 :=
  win0_0.fill (grid0.coords t) (fun _ => (0 : EReal)) (Gen.iblk m c 0 t)
def in1 (c : Dev nD) (t : Fin cfg0.N) : S12288.Idx → Elt Ideal .i32 :=
  win0_1.fill (grid0.coords t) (fun _ => (0#32 : BitVec 32)) (Gen.iblk m c 1 t)
def in2 (c : Dev nD) (t : Fin cfg0.N) : S12288.Idx → Elt Ideal .i32 :=
  win0_2.fill (grid0.coords t) (fun _ => (0#32 : BitVec 32)) (Gen.iblk m c 2 t)

/-- The proof data of the one pipeline on device `c`: the arrays as the region finds them; after the body the
    input buffers at their blocks and the result's at what the body stores of them. -/
def dats (_ : Fin 1) (c : Dev nD) : Dat τ (Elt Ideal) Unit ℕ (UR sig nD τ) ℕ cfg0 c where
  A w := Gen.V m c (Pipeline.arrRef spec0 w)
  after w t := match w with
    | ⟨0, _⟩ => in0 m c t
    | ⟨1, _⟩ => in1 m c t
    | ⟨2, _⟩ => in2 m c t
    | ⟨3, _⟩ => stored (grid0.coords t) (in0 m c t) (in1 m c t) (in2 m c t)
  Φ _ := Pipeline.ΦA spec0 c
  q _ := fullShare
  owed _ := 0

/-- What the body finds: each input buffer just fetched — its block on the rows inside the array, `d` elsewhere. -/
theorem before_0 (c : Dev nD) (t : Fin cfg0.N) (d) :
    (dats m 0 c).before (0 : Fin 4) t d = win0_0.fill (grid0.coords t) d (Gen.iblk m c 0 t) := by
  unfold Dat.before; rw [if_pos (Gen.fetch0_0 t)]; rfl
theorem before_1 (c : Dev nD) (t : Fin cfg0.N) (d) :
    (dats m 0 c).before (1 : Fin 4) t d = win0_1.fill (grid0.coords t) d (Gen.iblk m c 1 t) := by
  unfold Dat.before; rw [if_pos (Gen.fetch0_1 t)]; rfl
theorem before_2 (c : Dev nD) (t : Fin cfg0.N) (d) :
    (dats m 0 c).before (2 : Fin 4) t d = win0_2.fill (grid0.coords t) d (Gen.iblk m c 2 t) := by
  unfold Dat.before; rw [if_pos (Gen.fetch0_2 t)]; rfl
/-- The result's buffer comes back from a write-back at contents nothing names. -/
theorem before_3 (c : Dev nD) (t : Fin cfg0.N) (d) : (dats m 0 c).before (3 : Fin 4) t d = d := by
  refine (dats m 0 c).before_out_reset (3 : Fin 4) rfl t ?_ d
  by_cases h : t.val = 0
  · exact .inl h
  · exact .inr ⟨h, Gen.flush0_3 _⟩

/-! ## What the body stores does not depend on what lies past the array's end -/

/-- Whatever the input buffers hold past the array's end, the body stores at point `t` the lane sums of block `t`:
    a row past the table's end is discarded by the row mask, and a row inside it is the table's. -/
theorem stored_eq (c : Dev nD) (t : Fin cfg0.N) (d0 : S12288x100.Idx → Elt Ideal .f32) (d1 d2 : S12288.Idx → Elt Ideal .i32) :
    stored (grid0.coords t) (win0_0.fill (grid0.coords t) d0 (Gen.iblk m c 0 t)) (win0_1.fill (grid0.coords t) d1 (Gen.iblk m c 1 t))
        (win0_2.fill (grid0.coords t) d2 (Gen.iblk m c 2 t))
      = fun j => Cert.Spec.blockLane (tabX m c) (tabL m c) (tabN m c) (Fin.cast Gen.N_0 t) (j 2) := by
  obtain ⟨e0, -⟩ := idx_facts t
  funext j
  have hj : ∃ l : Fin 128, j = ix3 (0 : Fin 1) (0 : Fin 1) l := ⟨j 2, by
    funext a
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
    | ⟨2, _⟩ => rfl⟩
  obtain ⟨l, rfl⟩ := hj
  unfold stored
  rw [Pay.pay_apply]
  show _ = Cert.Spec.blockLane (tabX m c) (tabL m c) (tabN m c) (Fin.cast Gen.N_0 t) l
  unfold Cert.Spec.blockLane
  refine Finset.sum_congr rfl fun a _ => ?_
  by_cases h : Cert.Spec.rowOf (Fin.cast Gen.N_0 t) a l < 1000000
  · have hv : Pay.validW (grid0.coords t) a l = 1#1 := (Pay.validW_eq_one_iff _ a l).mpr (by rw [e0]; exact h)
    rw [dif_pos h, hv, select_one]
    congr 1
    · funext k; exact fill_read0 m c t d0 (Pay.rowIn a l) k h
    · exact fill_read2 m c t d2 (Pay.rowIn a l) h
    · exact fill_read1 m c t d1 (Pay.rowIn a l) h
  · have hv : Pay.validW (grid0.coords t) a l = 0#1 :=
      eq_zero_of_ne_one fun hv => h (by have := (Pay.validW_eq_one_iff _ a l).mp hv; rw [e0] at this; exact this)
    rw [dif_neg h, hv, select_zero]

/-! ## The kernel body's obligation -/

theorem body_obligation (c : Dev nD) : BodyObligationLoose (dats m 0 c) (defs₀ (F := Ideal)) 𝒱₀ () Set.univ := fun t => by
  rw [Gen.bigSep_W0, Gen.bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := Ideal) c Set.univ (grid0.coords t) (cfg0.slots t 0) (cfg0.slots t 1) (cfg0.slots t 2) (cfg0.slots t 3)
    (win0_0.fill (grid0.coords t) d0 (Gen.iblk m c 0 t)) (win0_1.fill (grid0.coords t) d1 (Gen.iblk m c 1 t))
    (win0_2.fill (grid0.coords t) d2 (Gen.iblk m c 2 t)) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  have h0 : win0_0.cut (grid0.coords t) (in0 m c t) = Gen.iblk m c 0 t := win0_0.cut_fill _ _ _
  have h1 : win0_1.cut (grid0.coords t) (in1 m c t) = Gen.iblk m c 1 t := win0_1.cut_fill _ _ _
  have h2 : win0_2.cut (grid0.coords t) (in2 m c t) = Gen.iblk m c 2 t := win0_2.cut_fill _ _ _
  have e3 : stored (grid0.coords t) (in0 m c t) (in1 m c t) (in2 m c t)
      = stored (grid0.coords t) (win0_0.fill (grid0.coords t) d0 (Gen.iblk m c 0 t)) (win0_1.fill (grid0.coords t) d1 (Gen.iblk m c 1 t))
          (win0_2.fill (grid0.coords t) d2 (Gen.iblk m c 2 t)) := by
    unfold in0 in1 in2
    rw [stored_eq m c t, stored_eq m c t d0 d1 d2]
  isplitl [H0]
  · iexists d0
    change _ ⊢ owns (c : Thread nD τ) (stage0_0 (cfg0.slots t 0)) fullShare (win0_0.fill (grid0.coords t) d0 (win0_0.cut (grid0.coords t) (in0 m c t)))
    rw [h0]; try iexact H0
  isplitl [H1]
  · iexists d1
    change _ ⊢ owns (c : Thread nD τ) (stage0_1 (cfg0.slots t 1)) fullShare (win0_1.fill (grid0.coords t) d1 (win0_1.cut (grid0.coords t) (in1 m c t)))
    rw [h1]; try iexact H1
  isplitl [H2]
  · iexists d2
    change _ ⊢ owns (c : Thread nD τ) (stage0_2 (cfg0.slots t 2)) fullShare (win0_2.fill (grid0.coords t) d2 (win0_2.cut (grid0.coords t) (in2 m c t)))
    rw [h2]; try iexact H2
  · change _ ⊢ owns (c : Thread nD τ) (stage0_3 (cfg0.slots t 3)) fullShare (stored (grid0.coords t) (in0 m c t) (in1 m c t) (in2 m c t))
    rw [e3]; exact BI.Entails.refl _

/-! ## The launch -/

/-- Every weakly fair execution of @main ends, nothing faulting, with every array of the pipeline at what the proof
    data computes and the host lines after the region run on that. -/
theorem run_main : θ_run defs (onTc (τ := τ) (main (F := Ideal))) (s₀ m ρ)
    (Pipeline.FramePost cfgs (dats m) 0 (Pipeline.afterTail₀ cfgs (dats m) 0 (Gen.V0 m) [Gen.hostOps1])) :=
  Pipeline.θ_run_frame_around cfgs (dats m) 0 Gen.launch0 defs₀ 𝒱₀ m ρ main
    (hbody := body_obligation m)
    (hshare := fun c => (dats m 0 c).share_full fun _ => rfl) (howed := fun _ _ => rfl)
    (V₀ := Gen.V0 m) (opss := [Gen.hostOps1])
    (hsub := Gen.sfx_sub (F := Ideal)) (hfresh := Gen.sfx_fresh (F := Ideal)) (hkeep := Gen.sfx_keeps (F := Ideal))
    (hmain := Gen.hmain m 𝒱₀) (hA := fun _ _ => rfl) (hΦ := fun _ _ => rfl)

/-- The frame of the idealized kernel. -/
theorem frame : Cert.frame_KernelIdeal := fun m ρ _ => Gen.frame_of m ρ (dats m) (fun _ _ => rfl) (run_main m ρ)

/-! ## The result array, and the host lines after the region -/

/-- The result array after the run: lane `l` of block `t` at `(t, 0, l)`. -/
def resArr (c : Dev nD) : S82x1x128.Idx → EReal :=
  fun i => Cert.Spec.blockLane (tabX m c) (tabL m c) (tabN m c) (i 0) (i 2)

/-- What point `t` writes back is block `t` of that array. -/
theorem flushed3_eq (c : Dev nD) (t : Fin cfg0.N) :
    (dats m 0 c).flushed 3 t = ((cfg0.win 3).blk t).view.read (Elt Ideal) (resArr m c) := by
  show (cfg0.win 3).cut (grid0.coords t) ((dats m 0 c).after 3 t) = _
  have e : (dats m 0 c).after (3 : Fin 4) t
      = fun j => Cert.Spec.blockLane (tabX m c) (tabL m c) (tabN m c) (Fin.cast Gen.N_0 t) (j 2) := by
    show stored (grid0.coords t) (in0 m c t) (in1 m c t) (in2 m c t) = _
    unfold in0 in1 in2
    exact stored_eq m c t _ _ _
  rw [e]
  obtain ⟨-, -, -, -, -, e5, e6, e7⟩ := idx_facts t
  funext j
  have h0 : (j 0).val < 1 := (j 0).isLt
  have a0 : (Fin.cast Gen.N_0 t : Fin 82) = (((cfg0.win 3).blk t).view.emb j) 0 := by
    apply Fin.ext
    show t.val = win0_3.index t (0 : Fin 3) * 1 + 1 * (j 0).val
    rw [e5]; omega
  have a2 : (win0_3.xinj (grid0.coords t) j) 2 = (((cfg0.win 3).blk t).view.emb j) 2 := by
    apply Fin.ext
    show (j 2).val = win0_3.index t (2 : Fin 3) * 128 + 1 * (j 2).val
    rw [e7]; omega
  show Cert.Spec.blockLane _ _ _ (Fin.cast Gen.N_0 t) ((win0_3.xinj (grid0.coords t) j) 2)
    = resArr m c (((cfg0.win 3).blk t).view.emb j)
  unfold resArr
  rw [a0, a2]

/-- The result array after the run. -/
theorem final3 (c : Dev nD) : (dats m 0 c).arrAt 3 cfg0.N = resArr m c :=
  (dats m 0 c).arrAt_eq_of_cover 3 (resArr m c) (fun t _ => flushed3_eq m c t) cover3

/-- The host lines after the region sum the result array over all its entries from the zero word and lay the sum
    out as a vector of one entry. -/
theorem tail_v2 (c : Dev nD) :
    Pipeline.afterTail₀ cfgs (dats m) 0 (Gen.V0 m) [Gen.hostOps1] c main_v2
      = fun _ => Cert.Spec.kerTotal (tabX m c) (tabL m c) (tabN m c) := by
  have hW : Pipeline.withArrays (cfgs 0).spec c (Gen.V0 m c) (fun w => (dats m 0 c).arrAt w (cfgs 0).N) (Proc.devRef .tc main_v0)
      = resArr m c := (Pipeline.withArrays_arr spec0 Gen.launch0.win.arr_inj c _ _ 3).trans (final3 m c)
  unfold Pipeline.afterTail₀
  show StableHlo.after Gen.hostOps1 _ (Proc.devRef .tc main_v2) = _
  after_results
  rw [hW]
  funext i
  exact Ideal.hostReduceAdd_total reducesTo_S82x1x128_S_d0_1_2 (fun b => b.elim0) (resArr m c) _ _

/-! ## The run, read -/

/-- Every weakly fair execution of the idealized kernel's @main ends, nothing faulting, with the one entry of the result
    at the sum of all the blocks' lanes of the three argument arrays, and those unchanged. -/
theorem kernel_run : θ_run (defs (F := Ideal)) (onTc (τ := τ) (main (F := Ideal))) ⟨m, fun _ => 0, ρ⟩ (fun r => ∀ c : Dev nD,
      r.2.mem ((c.tc : Thread nD τ).loc main_v2)
        = (fun _ => Cert.Spec.kerTotal (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v2 (Pipeline.mem_restRefs_of main_v2 rfl (by decide))).trans (tail_v2 m c),
        ((h c).1 0).trans (((dats m 0 c).arrAt_in 0 rfl _).trans (Gen.V_main_arg0 m c)),
        ((h c).1 1).trans (((dats m 0 c).arrAt_in 1 rfl _).trans (Gen.V_main_arg1 m c)),
        ((h c).1 2).trans (((dats m 0 c).arrAt_in 2 rfl _).trans (Gen.V_main_arg2 m c))⟩)
    (run_main m ρ)

end Cert.KernelIdeal.Hand

end
-- ==== Proof.RefRun.lean ====
/-
  The reference program's run. Its @main is a straight line of forty-five array operations once the five
  functions it calls (the positive part, the three selections with a fill value, the leaky hinge, which itself
  calls a selection) are put in place of their calls. Every weakly fair execution terminates; the result buffer
  then holds the operations' composed term of the three argument arrays, and the arguments are unchanged.

  The composed term is named in pieces over arbitrary arrays: the prefix mask (column number below the row's
  length), the mean hinge of a row, the least live entry of a row, that entry shifted, the leaky hinge, the
  choice between the two by the label, and the total over the rows.
-/
import proofs.«144233_j25769803776122_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The table's, a row vector's and the result's contents. -/
abbrev TX (F : FTy → Type) : Type := (⟨S1000000x100, .f32⟩ : BufTy).Contents (Elt F)
abbrev TV (F : FTy → Type) : Type := (⟨S1000000, .i32⟩ : BufTy).Contents (Elt F)
abbrev TR (F : FTy → Type) : Type := (⟨S1000000, .f32⟩ : BufTy).Contents (Elt F)
abbrev TM (F : FTy → Type) : Type := (⟨S1000000x100, .i1⟩ : BufTy).Contents (Elt F)

/-- Entry (R, k) is one when the column number k is below row R's length word, as signed words. -/
def mask (N : TV F) : TM F :=
  cmpi .slt
    (broadcastInDim S1000000x100 ![0, 1] bcast_S1x100_S1000000x100_0_1
      (broadcastInDim S1x100 ![1] bcast_S100_S1x100_1 (iotaInDim S100 32 0 : (⟨S100, .i32⟩ : BufTy).Contents (Elt F))
        : (⟨S1x100, .i32⟩ : BufTy).Contents (Elt F)) : (⟨S1000000x100, .i32⟩ : BufTy).Contents (Elt F))
    (broadcastInDim S1000000x100 ![0, 1] bcast_S1000000x1_S1000000x100_0_1
      (broadcastInDim S1000000x1 ![0] bcast_S1000000_S1000000x1_0 N : (⟨S1000000x1, .i32⟩ : BufTy).Contents (Elt F))
        : (⟨S1000000x100, .i32⟩ : BufTy).Contents (Elt F))

/-- The hinge of every entry: the positive part of the negated entry plus the margin. -/
def hinge (X : TX F) : TX F :=
  maximumf (addf (Host.negf X) (broadcastInDim S1000000x100 ![] bcast_S_S1000000x100 (constant S_ .f32 0x3A83126F#32)))
    (broadcastInDim S1000000x100 ![] bcast_S_S1000000x100 (constant S_ .f32 0x00000000#32))

/-- Per row: the sum of the hinge over the live columns, divided by the length as a number. -/
def aligned (X : TX F) (N : TV F) : TR F :=
  Host.divf
    (Host.reduceAdd
      (select (mask N) (hinge X) (broadcastInDim S1000000x100 ![] bcast_S_S1000000x100 (id (constant S_ .f32 0x00000000#32))) : TX F)
      (constant S_ .f32 0x00000000#32) reducesTo_S1000000x100_S1000000_d1 h_S_)
    (sitofp .f32 N)

/-- Per row: the least entry over the live columns. -/
def rowmin (X : TX F) (N : TV F) : TR F :=
  Host.reduce FloatOps.minimumf
    (select (mask N) X (broadcastInDim S1000000x100 ![] bcast_S_S1000000x100 (id (constant S_ .f32 0x7F800000#32))) : TX F)
    (constant S_ .f32 0x7F800000#32) reducesTo_S1000000x100_S1000000_d1 h_S_

/-- Per row: the least live entry plus the shift. -/
def shifted (X : TX F) (N : TV F) : TR F :=
  addf (rowmin X N) (broadcastInDim S1000000 ![] bcast_S_S1000000 (constant S_ .f32 0x3E19999A#32))

/-- Per row: the leaky hinge of the shifted least entry. -/
def leaky (X : TX F) (N : TV F) : TR F :=
  select (cmpf .oge (shifted X N) (broadcastInDim S1000000 ![] bcast_S_S1000000 (constant S_ .f32 0x00000000#32)))
    (shifted X N)
    (mulf (broadcastInDim S1000000 ![] bcast_S_S1000000 (id (constant S_ .f32 0x3C23D70A#32))) (shifted X N))

/-- Per row: the mean hinge where the label is one, the leaky hinge elsewhere. -/
def perRow (X : TX F) (L N : TV F) : TR F :=
  select (cmpi .eq L (broadcastInDim S1000000 ![] bcast_S_S1000000 (constantI S_ 32 1#32))) (aligned X N) (leaky X N)

/-- The sum of the rows' values. -/
def total (X : TX F) (L N : TV F) : (⟨S_, .f32⟩ : BufTy).Contents (Elt F) :=
  Host.reduceAdd (perRow X L N) (constant S_ .f32 0x00000000#32) reducesTo_S1000000_S_d0 h_S_

/-- The result: the total as a one-element array. -/
def out (X : TX F) (L N : TV F) : (⟨S1, .f32⟩ : BufTy).Contents (Elt F) :=
  fun i => shapeCast S1 (total X L N) shapeCasts_S_S1 i

/-- @main's forty-five operations in order, each called function's operations in place of its call, over that
    call's own buffers. -/
abbrev ops : List (HloOp τ sig (Elt F)) :=
  [ nullary main_v0 (iotaInDim S100 32 0),
    unary main_v0 main_v1 (broadcastInDim S1x100 ![1] bcast_S100_S1x100_1 : (⟨S100, .i32⟩ : BufTy).Contents (Elt F) → (⟨S1x100, .i32⟩ : BufTy).Contents (Elt F)),
    unary main_arg2 main_v2 (broadcastInDim S1000000x1 ![0] bcast_S1000000_S1000000x1_0 : (⟨S1000000, .i32⟩ : BufTy).Contents (Elt F) → (⟨S1000000x1, .i32⟩ : BufTy).Contents (Elt F)),
    unary main_v1 main_v3 (broadcastInDim S1000000x100 ![0, 1] bcast_S1x100_S1000000x100_0_1 : (⟨S1x100, .i32⟩ : BufTy).Contents (Elt F) → (⟨S1000000x100, .i32⟩ : BufTy).Contents (Elt F)),
    unary main_v2 main_v4 (broadcastInDim S1000000x100 ![0, 1] bcast_S1000000x1_S1000000x100_0_1 : (⟨S1000000x1, .i32⟩ : BufTy).Contents (Elt F) → (⟨S1000000x100, .i32⟩ : BufTy).Contents (Elt F)),
    binary main_v3 main_v4 main_v5 (cmpi .slt : (⟨S1000000x100, .i32⟩ : BufTy).Contents (Elt F) → (⟨S1000000x100, .i32⟩ : BufTy).Contents (Elt F) → (⟨S1000000x100, .i1⟩ : BufTy).Contents (Elt F)),
    unary main_arg0 main_v6 (Host.negf : (⟨S1000000x100, .f32⟩ : BufTy).Contents (Elt F) → (⟨S1000000x100, .f32⟩ : BufTy).Contents (Elt F)),
    nullary main_cst (constant S_ .f32 0x3A83126F#32),
    unary main_cst main_v7 (broadcastInDim S1000000x100 ![] bcast_S_S1000000x100 : (⟨S_, .f32⟩ : BufTy).Contents (Elt F) → (⟨S1000000x100, .f32⟩ : BufTy).Contents (Elt F)),
    binary main_v6 main_v7 main_v8 (addf : (⟨S1000000x100, .f32⟩ : BufTy).Contents (Elt F) → (⟨S1000000x100, .f32⟩ : BufTy).Contents (Elt F) → (⟨S1000000x100, .f32⟩ : BufTy).Contents (Elt F)),
    TRef.nullary main_call0.cst (constant S_ .f32 0x00000000#32),
    TRef.unary main_call0.cst main_call0.v0 (broadcastInDim S1000000x100 ![] bcast_S_S1000000x100),
    TRef.binary (.of main_v8) main_call0.v0 main_call0.v1 maximumf,
    nullary main_cst_0 (constant S_ .f32 0x00000000#32),
    TRef.unary (.of main_cst_0) main_call1.v0 id,
    TRef.unary main_call1.v0 main_call1.v1 (broadcastInDim S1000000x100 ![] bcast_S_S1000000x100),
    TRef.ternary (.of main_v5) (.of main_v9) main_call1.v1 main_call1.v2 select,
    nullary main_cst_1 (constant S_ .f32 0x00000000#32),
    binary main_v10 main_cst_1 main_v11 ((fun x v => Host.reduceAdd x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    unary main_arg2 main_v12 (sitofp .f32 : (⟨S1000000, .i32⟩ : BufTy).Contents (Elt F) → (⟨S1000000, .f32⟩ : BufTy).Contents (Elt F)),
    binary main_v11 main_v12 main_v13 (Host.divf : (⟨S1000000, .f32⟩ : BufTy).Contents (Elt F) → (⟨S1000000, .f32⟩ : BufTy).Contents (Elt F) → (⟨S1000000, .f32⟩ : BufTy).Contents (Elt F)),
    nullary main_cst_2 (constant S_ .f32 0x7F800000#32),
    TRef.unary (.of main_cst_2) main_call2.v0 id,
    TRef.unary main_call2.v0 main_call2.v1 (broadcastInDim S1000000x100 ![] bcast_S_S1000000x100),
    TRef.ternary (.of main_v5) (.of main_arg0) main_call2.v1 main_call2.v2 select,
    nullary main_cst_3 (constant S_ .f32 0x7F800000#32),
    binary main_v14 main_cst_3 main_v15 ((fun x v => Host.reduce FloatOps.minimumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    nullary main_cst_4 (constant S_ .f32 0x3E19999A#32),
    unary main_cst_4 main_v16 (broadcastInDim S1000000 ![] bcast_S_S1000000 : (⟨S_, .f32⟩ : BufTy).Contents (Elt F) → (⟨S1000000, .f32⟩ : BufTy).Contents (Elt F)),
    binary main_v15 main_v16 main_v17 (addf : (⟨S1000000, .f32⟩ : BufTy).Contents (Elt F) → (⟨S1000000, .f32⟩ : BufTy).Contents (Elt F) → (⟨S1000000, .f32⟩ : BufTy).Contents (Elt F)),
    nullary main_cst_5 (constant S_ .f32 0x3C23D70A#32),
    TRef.nullary main_call3.cst (constant S_ .f32 0x00000000#32),
    TRef.unary main_call3.cst main_call3.v0 (broadcastInDim S1000000 ![] bcast_S_S1000000),
    TRef.binary (.of main_v17) main_call3.v0 main_call3.v1 (cmpf .oge),
    TRef.unary (.of main_cst_5) main_call3.v2 id,
    TRef.unary main_call3.v2 main_call3.v3 (broadcastInDim S1000000 ![] bcast_S_S1000000),
    TRef.binary main_call3.v3 (.of main_v17) main_call3.v4 mulf,
    TRef.ternary main_call3.v1 (.of main_v17) main_call3.v4 main_call3.call0.v0 select,
    nullary main_c (constantI S_ 32 1#32),
    unary main_c main_v19 (broadcastInDim S1000000 ![] bcast_S_S1000000 : (⟨S_, .i32⟩ : BufTy).Contents (Elt F) → (⟨S1000000, .i32⟩ : BufTy).Contents (Elt F)),
    binary main_arg1 main_v19 main_v20 (cmpi .eq : (⟨S1000000, .i32⟩ : BufTy).Contents (Elt F) → (⟨S1000000, .i32⟩ : BufTy).Contents (Elt F) → (⟨S1000000, .i1⟩ : BufTy).Contents (Elt F)),
    TRef.ternary (.of main_v20) (.of main_v13) (.of main_v18) main_call4.v0 select,
    nullary main_cst_6 (constant S_ .f32 0x00000000#32),
    binary main_v21 main_cst_6 main_v22 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    reshape main_v22 main_v23 rfl shapeCasts_S_S1 ]

-- forty-five binds re-associated, one recursion per statement
set_option maxRecDepth 2048 in
/-- @main is that straight line: the called functions unfolded at their calls, sequencing re-associated. -/
theorem main_eq (c : Dev nD) : main (F := F) c = seq ops := by
  simp only [main, fn_relu.body, fn_where.body, fn_where_0.body, fn_where_1.body, fn_leaky_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., nullary_bufs_sub .., unary_bufs_sub .., binary_bufs_sub ..,
    nullary_bufs_sub .., unary_bufs_sub .., binary_bufs_sub ..,
    nullary_bufs_sub .., unary_bufs_sub .., unary_bufs_sub .., ternary_bufs_sub ..,
    nullary_bufs_sub .., binary_bufs_sub .., unary_bufs_sub .., binary_bufs_sub ..,
    nullary_bufs_sub .., unary_bufs_sub .., unary_bufs_sub .., ternary_bufs_sub ..,
    nullary_bufs_sub .., binary_bufs_sub .., nullary_bufs_sub .., unary_bufs_sub .., binary_bufs_sub ..,
    nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub ..,
    ternary_bufs_sub ..,
    nullary_bufs_sub .., binary_bufs_sub .., reshape_bufs_sub ..⟩

-- the two reductions stay folded while the fold over the operations is read back: the equation never looks inside them
attribute [local irreducible] Host.reduce Host.reduceAdd in
/-- The fold of the forty-five operations, read at the result buffer, is the composed term of the three arguments. -/
theorem out_eq (V : Valuation τ sig (Elt F)) :
    after ops V (Proc.devRef .tc main_v23)
      = out (V (Proc.devRef .tc main_arg0)) (V (Proc.devRef .tc main_arg1)) (V (Proc.devRef .tc main_arg2)) := by
  after_results_simp
  rfl

theorem arg0_eq (V : Valuation τ sig (Elt F)) : after ops V (Proc.devRef .tc main_arg0) = V (Proc.devRef .tc main_arg0) := by
  after_results_simp

theorem arg1_eq (V : Valuation τ sig (Elt F)) : after ops V (Proc.devRef .tc main_arg1) = V (Proc.devRef .tc main_arg1) := by
  after_results_simp

theorem arg2_eq (V : Valuation τ sig (Elt F)) : after ops V (Proc.devRef .tc main_arg2) = V (Proc.devRef .tc main_arg2) := by
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v23).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Hand

end
-- ==== Proof.RefValue.lean ====
/-
  The reference's composed term, read at the extended reals, is the specification's total.

  Index by index over arbitrary arrays: the prefix mask at (R, k) compares the word of the column number k with
  row R's length word; a row's sum of the masked hinge is the zero word plus the sum over its hundred columns, and
  its quotient by the length read as a number is the mean hinge; a row's masked minimum from plus infinity is the
  infimum over its hundred columns, which shifted and passed through the leaky hinge is the other branch; the label
  chooses between the two; the sum over the rows from the zero word is the total, and the one-element result holds
  it. Then the run, which ends with the result buffer at that term of the argument arrays, ends with it at the total.
-/
import proofs.«144233_j25769803776122_2_alg».proof.Defs
import proofs.«144233_j25769803776122_2_alg».proof.Proof.Gen.ReferenceIdeal
import proofs.«144233_j25769803776122_2_alg».proof.Proof.Gen.Pre_finite_inputs
import proofs.«144233_j25769803776122_2_alg».proof.Proof.Spec
import proofs.«144233_j25769803776122_2_alg».proof.Proof.LibMinReduce
import proofs.«144233_j25769803776122_2_alg».proof.Proof.RefRun
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem
  Idealize.ShloMosaic.ValueIdx Cert.Spec

/-- The table reduces along its columns to a row vector. -/
theorem hR2 : S1000000x100.Reduces [1] S1000000 := by decide

/-- Row R with column k put back is entry (R, k). -/
theorem lift2 (R : Fin 1000000) (k : Fin 100) : hR2.lift (ix1 R) k = ix2 R k := by
  funext c
  apply Fin.ext
  match c with
  | ⟨0, _⟩ => rfl
  | ⟨1, _⟩ => rfl

/-- A row vector's indices are the row numbers. -/
def rowEquiv : Fin 1000000 ≃ S1000000.Idx where
  toFun R := ix1 R
  invFun j := j 0
  left_inv _ := rfl
  right_inv j := (eq_ix1 j).symm

variable (X : TX Ideal) (L N : TV Ideal) (R : Fin 1000000)

/-- The mask at (R, k): the column number's word against row R's length word. -/
theorem mask_apply (k : Fin 100) : mask (F := Ideal) N (ix2 R k) = live (N (ix1 R)) k := by
  unfold mask live
  show IntOp.cmpi .slt _ _ = IntOp.cmpi .slt _ _
  congr 1
  rw [broadcastInDim_apply _ _ _ (ix2 R k) (ix2 R (0 : Fin 1)) (by intro a; match a with | ⟨0, _⟩ => rfl | ⟨1, _⟩ => rfl)]
  rw [broadcastInDim_apply _ _ _ (ix2 R (0 : Fin 1)) (ix1 R) (by intro a; match a with | ⟨0, _⟩ => rfl)]

/-- A row's mean hinge. -/
theorem aligned_apply : aligned (F := Ideal) X N (ix1 R) = meanR (fun k => X (ix2 R k)) (N (ix1 R)) := by
  unfold aligned meanR
  rw [hostDivf_apply, hostReduceAdd_apply, Ideal.hostReduceAdd_single _ hR2]
  congr 1
  congr 1
  refine Finset.sum_congr rfl fun (k : Fin 100) _ => ?_
  rw [lift2 R k, select_apply, mask_apply]
  rfl

/-- A row's least live entry. -/
theorem rowmin_apply : rowmin (F := Ideal) X N (ix1 R) = rowMin (fun k => X (ix2 R k)) (N (ix1 R)) := by
  unfold rowmin rowMin
  refine (Idealize.ShloMosaic.Ideal.hostReduce_minimumf_single_iInf _ reducesTo_S1000000x100_S1000000_d1 hR2 h_S_ (ix1 R)).trans ?_
  refine iInf_congr fun (k : Fin 100) => ?_
  rw [lift2 R k, select_apply, mask_apply]
  rfl

/-- A row's least live entry, shifted. -/
theorem shifted_apply : shifted (F := Ideal) X N (ix1 R) = rowMin (fun k => X (ix2 R k)) (N (ix1 R)) + shift := by
  unfold shifted
  rw [addf_apply, rowmin_apply]
  rfl

/-- A row's leaky hinge. -/
theorem leaky_apply : leaky (F := Ideal) X N (ix1 R) = leakR (fun k => X (ix2 R k)) (N (ix1 R)) := by
  unfold leaky leakR
  rw [select_apply, cmpf_apply, mulf_apply, shifted_apply]
  rfl

/-- A row's value. -/
theorem perRow_apply : perRow (F := Ideal) X L N (ix1 R) = rowR (fun k => X (ix2 R k)) (N (ix1 R)) (L (ix1 R)) := by
  unfold perRow rowR
  rw [select_apply, aligned_apply, leaky_apply]
  rfl

/-- The rows' total. -/
theorem total_apply (j : S_.Idx) : total (F := Ideal) X L N j = refTotal X L N := by
  unfold total refTotal
  rw [hostReduceAdd_apply, Ideal.hostReduceAdd_total _ (fun b => b.elim0)]
  refine congrArg (fun s : EReal => zero + s) ?_
  refine (Fintype.sum_equiv rowEquiv _ _ fun R => ?_).symm
  exact (perRow_apply X L N R).symm

/-- The result array holds the total. -/
theorem out_apply : out (F := Ideal) X L N = fun _ => refTotal X L N := by
  funext i
  exact total_apply X L N _

/-- On every device, from any memory with zero counters: every weakly fair execution of the reference terminates
    with its one result element at the specification's total of the three argument arrays (labels the second,
    lengths the third) and the arguments unchanged. -/
theorem run_value (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v23) = (fun _ => Cert.Spec.refTotal (m ((c.tc : Thread _ _).loc Cert.ReferenceIdeal.main_arg0)) (m ((c.tc : Thread _ _).loc Cert.ReferenceIdeal.main_arg1)) (m ((c.tc : Thread _ _).loc Cert.ReferenceIdeal.main_arg2)))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨(h c).1.trans (out_apply _ _ _), (h c).2⟩) (run (F := Ideal) m ρ)

/-- The reference runs and leaves its argument arrays unchanged. -/
theorem frame : Cert.frame_ReferenceIdeal := fun m ρ _ =>
  (θ_run (Cert.ReferenceIdeal.defs (F := Ideal)) _ _).mono (fun _ h c => (h c).2) (run_value m ρ)

end Cert.ReferenceIdeal.Hand

end
-- ==== Proof.Algebra.lean ====
/-
  The two sides' mathematics agree when every length word is at least one: row by row, and in total.
-/
import proofs.«144233_j25769803776122_2_alg».proof.Proof.Spec
import Idealize.ShloMosaic.PureOps.Ideal.Laws
import Mathlib.Algebra.BigOperators.Fin
import Mathlib.Data.EReal.Operations

noncomputable section

open scoped BigOperators

namespace Cert.Spec

open Idealize.ShloMosaic Idealize.ShloMosaic.ValueIdx

/-! ## A row -/

/-- A length word that is at least one (signed) is its own maximum with one. -/
theorem maxsi_one_of_sge (len : BitVec 32) (h : IntOp.cmpi .sge len 1#32 = 1#1) :
    IntOp.maxsi len 1#32 = len := by
  have h1 : (1#32).sle len = true := by
    have hc : IntOp.cmpi .sge len 1#32 = BitVec.ofBool ((1#32).sle len) := rfl
    rw [hc] at h
    cases hb : (1#32).sle len
    · rw [hb] at h; exact absurd h (by decide)
    · rfl
  unfold IntOp.maxsi
  split
  · rfl
  · rename_i hn
    rw [BitVec.sle] at h1
    rw [BitVec.slt] at hn
    apply BitVec.eq_of_toInt_eq
    have e1 : (1#32).toInt = 1 := by decide
    rw [e1] at h1 hn
    simp only [decide_eq_true_eq] at h1 hn
    omega

/-- The zero word is the number zero. -/
theorem zero_eq : zero = 0 := Ideal.ofBits_zero_f32

/-- The two mean hinges agree: `0 - x = -x` and `0 + s = s`. -/
theorem meanK_eq_meanR (x : Fin 100 → EReal) (n : BitVec 32) : meanK x n = meanR x n := by
  unfold meanK meanR
  simp only [zero_eq, zero_sub, zero_add]

/-- The two leaky hinges differ only at argument zero, where both give zero. -/
theorem leak_eq (s : EReal) :
    Scalar.select (Ideal.cmp .ogt s zero) s (slope * s) = Scalar.select (Ideal.cmp .oge s zero) s (slope * s) := by
  rw [zero_eq]
  unfold Ideal.cmp Scalar.select
  rcases lt_trichotomy (0 : EReal) s with h | h | h
  · simp [h, h.le]
  · subst h; simp
  · simp [not_lt.mpr h.le, not_le.mpr h]

theorem leakK_eq_leakR (x : Fin 100 → EReal) (n : BitVec 32) : leakK x n = leakR x n := leak_eq _

theorem rowK_eq_rowR (x : Fin 100 → EReal) (len lab : BitVec 32) (h : IntOp.cmpi .sge len 1#32 = 1#1) :
    rowK x len lab = rowR x len lab := by
  unfold rowK rowR
  rw [maxsi_one_of_sge len h, meanK_eq_meanR, leakK_eq_leakR]

/-! ## The total -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- Block `t`, lane `l` and row-in-lane `a` number the first `82 * 12288` naturals: `n` is row
    `n % 12288 / 128` of lane `n % 128` of block `n / 12288`. -/
def blockEquiv : Fin 82 × Fin 128 × Fin 96 ≃ Fin 1007616 where
  toFun q := ⟨rowOf q.1 q.2.2 q.2.1, by
    have h1 := q.1.isLt; have h2 := q.2.1.isLt; have h3 := q.2.2.isLt
    unfold rowOf; omega⟩
  invFun p := (⟨p.val / 12288, by have := p.isLt; omega⟩, ⟨p.val % 128, by omega⟩, ⟨p.val % 12288 / 128, by omega⟩)
  left_inv q := by
    obtain ⟨⟨t, ht⟩, ⟨l, hl⟩, ⟨a, ha⟩⟩ := q
    simp only [rowOf, Prod.mk.injEq, Fin.mk.injEq]
    refine ⟨?_, ?_, ?_⟩ <;> omega
  right_inv p := by
    apply Fin.ext
    simp only [rowOf]
    omega

/-- Summing over the 82 blocks of 128 lanes of 96 rows, rows past the millionth counting zero, is summing over
    the million rows: the blocks number the naturals below `82 * 12288` once each, and the terms from the
    millionth on are zero. -/
theorem sum_blocks {M : Type*} [AddCommMonoid M] (g : Fin 1000000 → M) :
    ∑ t : Fin 82, ∑ l : Fin 128, ∑ a : Fin 96,
      (if h : rowOf t a l < 1000000 then g ⟨rowOf t a l, h⟩ else 0) = ∑ R : Fin 1000000, g R := by
  let G : ℕ → M := fun n => if h : n < 1000000 then g ⟨n, h⟩ else 0
  have hR : ∑ R : Fin 1000000, g R = ∑ n ∈ Finset.range 1000000, G n := by
    rw [← Fin.sum_univ_eq_sum_range]
    refine Finset.sum_congr rfl (fun R _ => ?_)
    show g R = if h : R.val < 1000000 then g ⟨R.val, h⟩ else 0
    rw [dif_pos R.isLt]
  have hP : ∑ n ∈ Finset.range 1000000, G n = ∑ n ∈ Finset.range 1007616, G n :=
    Finset.sum_subset (fun n hn => by rw [Finset.mem_range] at hn ⊢; omega)
      (fun n _ hn => dif_neg (by rw [Finset.mem_range] at hn; exact hn))
  have hQ : ∑ n ∈ Finset.range 1007616, G n = ∑ p : Fin 1007616, G p.val :=
    (Fin.sum_univ_eq_sum_range G 1007616).symm
  have hE : ∑ p : Fin 1007616, G p.val = ∑ q : Fin 82 × Fin 128 × Fin 96, G (rowOf q.1 q.2.2 q.2.1) :=
    (Fintype.sum_equiv blockEquiv _ _ (fun q => rfl)).symm
  rw [hR, hP, hQ, hE, Fintype.sum_prod_type]
  simp only [Fintype.sum_prod_type]
  rfl

theorem kerTotal_eq_refTotal (X : SX.Idx → EReal) (L N : SV.Idx → BitVec 32)
    (hN : ∀ R : Fin 1000000, IntOp.cmpi .sge (N (ValueIdx.ix1 R)) 1#32 = 1#1) :
    kerTotal X L N = refTotal X L N := by
  have e : ∑ i : (⟨3, ![82, 1, 128]⟩ : Shape).Idx, blockLane X L N (i 0) (i 2)
      = ∑ t : Fin 82, ∑ l : Fin 128, blockLane X L N t l := by
    rw [sum_idx3 (n0 := 82) (n1 := 1) (n2 := 128) (fun i => blockLane X L N (i 0) (i 2))]
    refine Finset.sum_congr rfl (fun t _ => ?_)
    rw [Fin.sum_univ_one]
  unfold kerTotal refTotal
  rw [e]
  unfold blockLane
  rw [zero_eq, sum_blocks (fun R => rowK (fun k => X (ix2 R k)) (N (ix1 R)) (L (ix1 R)))]
  exact congrArg _ (Finset.sum_congr rfl (fun R _ => rowK_eq_rowR _ _ _ (hN R)))

end Cert.Spec

end
-- ==== Proof.PreDecode.lean ====
/-
  The precondition read back: every length word is at least one (signed).
-/
import proofs.«144233_j25769803776122_2_alg».proof.Pre_finite_inputs
import proofs.«144233_j25769803776122_2_alg».proof.Proof.Gen.Pre_finite_inputs
import Idealize.ShloMosaic.Lib.ReduceAll
import Idealize.ShloMosaic.Lib.ValueIdx

noncomputable section

namespace Cert.PreDecode

open Idealize.ShloMosaic Idealize.ShloMosaic.ValueIdx

/-- The rank-0 shape has a single index. -/
instance : Subsingleton Cert.Pre_finite_inputs.S_.Idx := ⟨fun a b => funext fun d => d.elim0⟩

/-- The conjunction of the two "for all" bits being one gives, from the second, that every length word
    compares at least one. -/
theorem len_ge_one {F : FTy → Type} [FloatOps F] (X : FVec F Cert.Pre_finite_inputs.S1000000x100 .f32)
    (L N : IVec Cert.Pre_finite_inputs.S1000000 32)
    (h : Cert.Pre_finite_inputs.fn (F := F) X L N = fun _ => 1#1) :
    ∀ R : Fin 1000000, IntOp.cmpi .sge (N (ValueIdx.ix1 R)) 1#32 = 1#1 := by
  intro R
  have h0 := congrFun h ValueIdx.ix0
  dsimp only [Cert.Pre_finite_inputs.fn] at h0
  have h2 := (IntOp.andi_eq_one.1 h0).2
  exact Host.reduce_andi_all _ _ _ _ _ h2 (ValueIdx.ix1 R)

end Cert.PreDecode

end
-- ==== Proof.lean ====
/-
  The certificate's claims, assembled.

  Both programs compute, over the extended reals, the sum over a million rows of a per-row value: for label one
  the mean over the row's first `n` entries of `max (-x + margin) 0`, otherwise the leaky hinge of the least of
  those entries plus a shift. The kernel first replaces the length word `n` by `max n 1` and adds the rows up in
  82 blocks of 96 x 128 rows, the last of which passes the end of the table and is masked there by row number; the
  reference uses `n` as given and adds the rows up in one sum. Under the precondition every length word is at
  least one, so `max n 1 = n`; the two leaky hinges differ only at the argument zero, where both are zero; and
  addition on the extended reals is a commutative monoid, so the blocked sum with zeros past the end is the plain
  sum (`Cert.Spec.kerTotal_eq_refTotal`). No finiteness of the table's entries is used.

  The frames: the word-level kernel's through proof data that relates nothing about what the buffers hold (at
  the word level the in-kernel sum is one opaque function of the whole source vector, so what is stored of a
  buffer whose tail nothing names cannot be named either, and the frame does not ask for it); the idealized
  kernel's through proof data naming the stored block; the reference's is its run with the result dropped.
-/
import proofs.«144233_j25769803776122_2_alg».proof.Defs
import proofs.«144233_j25769803776122_2_alg».proof.Proof.Gen.Kernel
import proofs.«144233_j25769803776122_2_alg».proof.Proof.Gen.KernelIdeal
import proofs.«144233_j25769803776122_2_alg».proof.Proof.Gen.ReferenceIdeal
import proofs.«144233_j25769803776122_2_alg».proof.Proof.Gen.Pre_finite_inputs
import proofs.«144233_j25769803776122_2_alg».proof.Proof.FrameBits
import proofs.«144233_j25769803776122_2_alg».proof.Proof.RunIdeal
import proofs.«144233_j25769803776122_2_alg».proof.Proof.RefValue
import proofs.«144233_j25769803776122_2_alg».proof.Proof.Algebra
import proofs.«144233_j25769803776122_2_alg».proof.Proof.PreDecode
import Idealize.ShloMosaic.Adequacy
import Idealize.ShloMosaic.Init

noncomputable section

namespace Cert.Proof

open Idealize.ShloMosaic Idealize.SL.Sem

/-- The idealized kernel and the idealized reference, run from memories agreeing on the arguments, end with the one
    entry of their results equal: the blocked, masked sum of the rows' values is their plain sum when every length
    word is at least one, which the precondition says. -/
theorem algebraic : Cert.algebraic_KernelIdeal_ReferenceIdeal := by
  intro m ρ m' ρ' hpre hagree
  refine ⟨_, Cert.KernelIdeal.Hand.kernel_run m ρ, ?_⟩
  refine (θ_run (Cert.ReferenceIdeal.defs (F := Ideal)) _ _).mono (fun r h c => ⟨(h c).1.trans ?_, (h c).2⟩)
    (Cert.ReferenceIdeal.Hand.run_value m' ρ')
  rw [(hagree c).1, (hagree c).2.1, (hagree c).2.2]
  funext _
  exact (Cert.Spec.kerTotal_eq_refTotal _ _ _ (Cert.PreDecode.len_ge_one _ _ _ (hpre c))).symm

theorem claim : Cert.Claim :=
  ⟨Cert.Kernel.Gen.facts, Cert.KernelIdeal.Gen.facts, Cert.ReferenceIdeal.Gen.facts, Cert.Pre_finite_inputs.Gen.facts,
    Cert.Kernel.Hand.frame, Cert.KernelIdeal.Hand.frame, Cert.ReferenceIdeal.Hand.frame, trivial, algebraic⟩

end Cert.Proof

end
